-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel

variable [Facts]

def fn_part1 {F : FTy → Type} [FloatOps F] (main_arg4 : FVec F S2048x4096 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048x4096 .f32 := Host.absf main_arg4
  let main_cst_6 : FVec F S_ .f32 := constant S_ .f32 0x7F800000#32
  let main_v20 : FVec F S2048x4096 .f32 := broadcastInDim S2048x4096 ![] bcast_S_S2048x4096 main_cst_6
  let main_v21 : IVec S2048x4096 1 := cmpf .olt main_v19 main_v20
  let main_c_7 : IVec S_ 1 := constantI S_ 1 1#1
  let main_v22 : IVec S_ 1 := (fun x v => Host.reduce IntOp.andi x v reducesTo_S2048x4096_S_d0_1 h_S_) main_v21 main_c_7
  let main_v23 : IVec S_ 1 := andi main_v18 main_v22
  main_v23

def fn {F : FTy → Type} [FloatOps F] (main_arg0 : FVec F S2048x4096 .f32) (main_arg1 : FVec F S2048x4096 .f32) (main_arg2 : FVec F S2048x4096 .f32) (main_arg3 : FVec F S2048x4096 .f32) (main_arg4 : FVec F S2048x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_v13 main_v16
-- ==== Kernel.lean ====
abbrev S2048x4096 : Shape := ⟨2, ![2048, 4096]⟩
abbrev S2048x1 : Shape := ⟨2, ![2048, 1]⟩
abbrev S32x128 : Shape := ⟨2, ![32, 128]⟩
abbrev S32x1 : Shape := ⟨2, ![32, 1]⟩
abbrev S32x16x128 : Shape := ⟨3, ![32, 16, 128]⟩
abbrev S32x128x16 : Shape := ⟨3, ![32, 128, 16]⟩
abbrev S32x128x128 : Shape := ⟨3, ![32, 128, 128]⟩
abbrev S32x128x1 : Shape := ⟨3, ![32, 128, 1]⟩
abbrev S32x16 : Shape := ⟨2, ![32, 16]⟩
abbrev S32 : Shape := ⟨1, ![32]⟩
abbrev S32x1x1 : Shape := ⟨3, ![32, 1, 1]⟩
abbrev S_ : Shape := ⟨0, ![]⟩

abbrev nBuf : Space → Nat
  | .hbm => 12
  | .vmem => 14
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S2048x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x1, .f32⟩
  | .local _ .vmem, ⟨11, _⟩ => ⟨S32x1, .f32⟩
  | .local _ .vmem, ⟨12, _⟩ => ⟨S32x16x128, .f32⟩
  | .local _ .vmem, ⟨13, _⟩ => ⟨S32x16x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![64, 32], ![false, false]⟩

def k0_cond2 (i : grid0.Coords) : BitVec 1 :=
  let arg1 : BitVec 32 := BitVec.ofNat 32 (i 1).val
  let c31_i32 : BitVec 32 := 31#32
  let v77 : BitVec 1 := Scalar.cmpi .eq arg1 c31_i32
  let v78 : BitVec 32 := Scalar.extui v77
  let c0_i32_30 : BitVec 32 := 0#32
  let v79 : BitVec 1 := Scalar.cmpi .ne v78 c0_i32_30
  v79

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S32x16x128_S32x16x128_0_0_0 : ∀ a, (![0, 0, 0] : Fin 3 → Nat) a + S32x16x128.size a ≤ S32x16x128.size a
  h_S32x16x128 : 0 < S32x16x128.numel
  shapeCasts_S32x16x128_S32x16x128 : S32x16x128.ShapeCasts S32x16x128
  inb_S32x128_S32x128_0_0 : ∀ a, (![0, 0] : Fin 2 → Nat) a + S32x128.size a ≤ S32x128.size a
  h_S32x128 : 0 < S32x128.numel
  iota_S32x128x16_d2_w32 : S32x128x16.Iotas .tc 32 [2]
  iota_S32x128x128_d2_w32 : S32x128x128.Iotas .tc 32 [2]
  shapeCasts_S32x128_S32x128x1 : S32x128.ShapeCasts S32x128x1
  broadcasts_S32x128x1_S32x128x16 : S32x128x1.Broadcasts S32x128x16
  natLt_1_32 : 1 < 32
  bitsLt_bf16_f32 : FTy.bits .bf16 < FTy.bits .f32
  broadcasts_S32x128x1_S32x128x128 : S32x128x1.Broadcasts S32x128x128
  reduces_S32x16x128_S32x16 : S32x16x128.Reduces [2] S32x16
  reduces_S32x16_S32 : S32x16.Reduces [1] S32
  shapeCasts_S32_S32x1 : S32.ShapeCasts S32x1
  shapeCasts_S32x1_S32x1x1 : S32x1.ShapeCasts S32x1x1
  broadcasts_S32x1x1_S32x16x128 : S32x1x1.Broadcasts S32x16x128
  inb_S32x1_S32x1_0_0 : ∀ a, (![0, 0] : Fin 2 → Nat) a + S32x1.size a ≤ S32x1.size a
  h_S32x1 : 0 < S32x1.numel
  reducesTo_S2048x1_S_d0_1 : S2048x1.ReducesTo [0, 1] S_
  h_S_ : 0 < S_.numel
  dot_S32x128x16_S32x128x128_S32x16x128_1_1_2_2_0_0_wf : DotDims.WF S32x128x16 S32x128x128 S32x16x128 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S2048x4096.size a
  hwx0_0 : ∀ i : grid0.Coords, EltTy.bits .f32 = 32 ∨ (Rect.block (s := S2048x4096) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S2048x4096.size a
  hwx0_1 : ∀ i : grid0.Coords, EltTy.bits .f32 = 32 ∨ (Rect.block (s := S2048x4096) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S2048x4096.size a
  hwx0_2 : ∀ i : grid0.Coords, EltTy.bits .f32 = 32 ∨ (Rect.block (s := S2048x4096) S32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S2048x4096.size a
  hwx0_3 : ∀ i : grid0.Coords, EltTy.bits .f32 = 32 ∨ (Rect.block (s := S2048x4096) S32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S2048x4096.size a
  hwx0_4 : ∀ i : grid0.Coords, EltTy.bits .f32 = 32 ∨ (Rect.block (s := S2048x4096) S32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S2048x1.size a
  hwx0_5 : ∀ i : grid0.Coords, EltTy.bits .f32 = 32 ∨ (Rect.block (s := S2048x1) S32x1.size (cc0_transform_5 i) (hinb0_5 i)).WholeWords (EltTy.packing .f32)

variable [Facts₀]

def dot_S32x128x16_S32x128x128_S32x16x128_1_1_2_2_0_0 : DotDims S32x128x16 S32x128x128 S32x16x128 where
  lhsContracting := [1]
  rhsContracting := [1]
  lhsNonContracting := [2]
  rhsNonContracting := [2]
  lhsBatch := [0]
  rhsBatch := [0]
  wf := dot_S32x128x16_S32x128x128_S32x16x128_1_1_2_2_0_0_wf

abbrev win0_0 : Pipeline.Window sig grid0 :=
  Pipeline.Window.ofSpec (Memref.whole main_arg0) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S32x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S8388608 : Shape := ⟨1, ![8388608]⟩
abbrev S4096000 : Shape := ⟨1, ![4096000]⟩
abbrev S8388608x1 : Shape := ⟨2, ![8388608, 1]⟩
abbrev S2048x2000 : Shape := ⟨2, ![2048, 2000]⟩

abbrev nBuf : Space → Nat
  | .hbm => 123
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S2048x4096, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S2048x4096, .i32⟩
  | .hbm, ⟨16, _⟩ => ⟨S2048x4096, .i32⟩
  | .hbm, ⟨17, _⟩ => ⟨S_, .i32⟩
  | .hbm, ⟨18, _⟩ => ⟨S2048x4096, .i32⟩
  | .hbm, ⟨19, _⟩ => ⟨S2048x4096, .i32⟩
  | .hbm, ⟨20, _⟩ => ⟨S2048, .i32⟩
  | .hbm, ⟨21, _⟩ => ⟨S2048x1, .i32⟩
  | .hbm, ⟨22, _⟩ => ⟨S_, .i32⟩
  | .hbm, ⟨23, _⟩ => ⟨S2048x1, .i32⟩
  | .hbm, ⟨24, _⟩ => ⟨S2048x1, .i32⟩
  | .hbm, ⟨25, _⟩ => ⟨S2048x4096, .i32⟩
  | .hbm, ⟨26, _⟩ => ⟨S2048x4096, .i32⟩
  | .hbm, ⟨27, _⟩ => ⟨S8388608, .i32⟩
  | .hbm, ⟨28, _⟩ => ⟨S_, .f32⟩
  | .hbm, ⟨29, _⟩ => ⟨S4096000, .f32⟩
  | .hbm, ⟨30, _⟩ => ⟨S8388608, .f32⟩
  | .hbm, ⟨31, _⟩ => ⟨S_, .i32⟩
  | .hbm, ⟨32, _⟩ => ⟨S8388608, .i32⟩
  | .hbm, ⟨33, _⟩ => ⟨S8388608, .i1⟩
  | .hbm, ⟨34, _⟩ => ⟨S_, .i32⟩
  | .hbm, ⟨35, _⟩ => ⟨S8388608, .i32⟩
  | .hbm, ⟨36, _⟩ => ⟨S8388608, .i32⟩
  | .hbm, ⟨37, _⟩ => ⟨S8388608, .i32⟩
  | .hbm, ⟨38, _⟩ => ⟨S8388608x1, .i32⟩
  | .hbm, ⟨39, _⟩ => ⟨S4096000, .f32⟩
  | .hbm, ⟨40, _⟩ => ⟨S2048x2000, .f32⟩
  | .hbm, ⟨41, _⟩ => ⟨S2048x2000, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x2000, .f32⟩
  | .hbm, ⟨50, _⟩ => ⟨S2048x2000, .f32⟩
  | .hbm, ⟨51, _⟩ => ⟨S2048x4096, .f32⟩
  | .hbm, ⟨52, _⟩ => ⟨S_, .f32⟩
  | .hbm, ⟨53, _⟩ => ⟨S2048x4096, .f32⟩
  | .hbm, ⟨54, _⟩ => ⟨S2048x4096, .f32⟩
  | .hbm, ⟨55, _⟩ => ⟨S_, .f32⟩
  | .hbm, ⟨56, _⟩ => ⟨S2048x4096, .f32⟩
  | .hbm, ⟨57, _⟩ => ⟨S2048x4096, .f32⟩
  | .hbm, ⟨58, _⟩ => ⟨S2048x4096, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S2048x4096, .i32⟩
  | .hbm, ⟨63, _⟩ => ⟨S2048x4096, .i32⟩
  | .hbm, ⟨64, _⟩ => ⟨S_, .i32⟩
  | .hbm, ⟨65, _⟩ => ⟨S2048x4096, .i32⟩
  | .hbm, ⟨66, _⟩ => ⟨S2048x4096, .i32⟩
  | .hbm, ⟨67, _⟩ => ⟨S2048, .i32⟩
  | .hbm, ⟨68, _⟩ => ⟨S2048x1, .i32⟩
  | .hbm, ⟨69, _⟩ => ⟨S_, .i32⟩
  | .hbm, ⟨70, _⟩ => ⟨S2048x1, .i32⟩
  | .hbm, ⟨71, _⟩ => ⟨S2048x1, .i32⟩
  | .hbm, ⟨72, _⟩ => ⟨S2048x4096, .i32⟩
  | .hbm, ⟨73, _⟩ => ⟨S2048x4096, .i32⟩
  | .hbm, ⟨74, _⟩ => ⟨S8388608, .i32⟩
  | .hbm, ⟨75, _⟩ => ⟨S_, .f32⟩
  | .hbm, ⟨76, _⟩ => ⟨S4096000, .f32⟩
  | .hbm, ⟨77, _⟩ => ⟨S8388608, .f32⟩
  | .hbm, ⟨78, _⟩ => ⟨S_, .i32⟩
  | .hbm, ⟨79, _⟩ => ⟨S8388608, .i32⟩
  | .hbm, ⟨80, _⟩ => ⟨S8388608, .i1⟩
  | .hbm, ⟨81, _⟩ => ⟨S_, .i32⟩
  | .hbm, ⟨82, _⟩ => ⟨S8388608, .i32⟩
  | .hbm, ⟨83, _⟩ => ⟨S8388608, .i32⟩
  | .hbm, ⟨84, _⟩ => ⟨S8388608, .i32⟩
  | .hbm, ⟨85, _⟩ => ⟨S8388608x1, .i32⟩
  | .hbm, ⟨86, _⟩ => ⟨S4096000, .f32⟩
  | .hbm, ⟨87, _⟩ => ⟨S2048x2000, .f32⟩
  | .hbm, ⟨88, _⟩ => ⟨S2048x2000, .f32⟩
  | .hbm, ⟨89, _⟩ => ⟨S_, .f32⟩
  | .hbm, ⟨90, _⟩ => ⟨S2048, .f32⟩
  | .hbm, ⟨91, _⟩ => ⟨S2048x1, .f32⟩
  | .hbm, ⟨92, _⟩ => ⟨S2048x1, .f32⟩
  | .hbm, ⟨93, _⟩ => ⟨S_, .f32⟩
  | .hbm, ⟨94, _⟩ => ⟨S2048x1, .f32⟩
  | .hbm, ⟨95, _⟩ => ⟨S2048x1, .f32⟩
  | .hbm, ⟨96, _⟩ => ⟨S2048x2000, .f32⟩
  | .hbm, ⟨97, _⟩ => ⟨S2048x2000, .f32⟩
  | .hbm, ⟨98, _⟩ => ⟨S2048x2000, .f32⟩
  | .hbm, ⟨99, _⟩ => ⟨S_, .f32⟩
  | .hbm, ⟨100, _⟩ => ⟨S2048, .f32⟩
  | .hbm, ⟨101, _⟩ => ⟨S2048x2000, .f32⟩
  | .hbm, ⟨102, _⟩ => ⟨S_, .f32⟩
  | .hbm, ⟨103, _⟩ => ⟨S2048, .f32⟩
  | .hbm, ⟨104, _⟩ => ⟨S2048, .f32⟩
  | .hbm, ⟨105, _⟩ => ⟨S_, .f32⟩
  | .hbm, ⟨106, _⟩ => ⟨S2048, .f32⟩
  | .hbm, ⟨107, _⟩ => ⟨S2048, .f32⟩
  | .hbm, ⟨108, _⟩ => ⟨S2048x2000, .f32⟩
  | .hbm, ⟨109, _⟩ => ⟨S_, .f32⟩
  | .hbm, ⟨110, _⟩ => ⟨S2048, .f32⟩
  | .hbm, ⟨111, _⟩ => ⟨S2048, .f32⟩
  | .hbm, ⟨112, _⟩ => ⟨S_, .f32⟩
  | .hbm, ⟨113, _⟩ => ⟨S2048, .f32⟩
  | .hbm, ⟨114, _⟩ => ⟨S2048, .f32⟩
  | .hbm, ⟨115, _⟩ => ⟨S2048, .f32⟩
  | .hbm, ⟨116, _⟩ => ⟨S2048, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call1_v0 : Ref sig .tc := ⟨.hbm, 41, rfl⟩
abbrev main_call1_cst : Ref sig .tc := ⟨.hbm, 42, rfl⟩
abbrev main_call1_v1 : Ref sig .tc := ⟨.hbm, 43, rfl⟩
abbrev main_call1_v2 : Ref sig .tc := ⟨.hbm, 44, rfl⟩
abbrev main_v23 : Ref sig .tc := ⟨.hbm, 45, rfl⟩
abbrev main_cst_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_v30 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_9 : Ref sig .tc := ⟨.hbm, 59, rfl⟩
abbrev main_c_10 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_c_11 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_12 : Ref sig .tc := ⟨.hbm, 75, rfl⟩
abbrev main_v42 : Ref sig .tc := ⟨.hbm, 76, rfl⟩
abbrev main_v43 : Ref sig .tc := ⟨.hbm, 77, rfl⟩
abbrev main_c_13 : Ref sig .tc := ⟨.hbm, 78, rfl⟩
abbrev main_v44 : Ref sig .tc := ⟨.hbm, 79, rfl⟩
abbrev main_v45 : Ref sig .tc := ⟨.hbm, 80, rfl⟩
abbrev main_c_14 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_call3_v0 : Ref sig .tc := ⟨.hbm, 88, rfl⟩
abbrev main_call3_cst : Ref sig .tc := ⟨.hbm, 89, rfl⟩
abbrev main_call3_v1 : Ref sig .tc := ⟨.hbm, 90, rfl⟩
abbrev main_call3_v2 : Ref sig .tc := ⟨.hbm, 91, rfl⟩
abbrev main_v52 : Ref sig .tc := ⟨.hbm, 92, rfl⟩
abbrev main_cst_15 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_16 : Ref sig .tc := ⟨.hbm, 99, rfl⟩
abbrev main_v58 : Ref sig .tc := ⟨.hbm, 100, rfl⟩
abbrev main_call4_v0 : Ref sig .tc := ⟨.hbm, 101, rfl⟩
abbrev main_call4_cst : Ref sig .tc := ⟨.hbm, 102, rfl⟩
abbrev main_call4_v1 : Ref sig .tc := ⟨.hbm, 103, rfl⟩
abbrev main_v59 : Ref sig .tc := ⟨.hbm, 104, rfl⟩
abbrev main_cst_17 : Ref sig .tc := ⟨.hbm, 105, rfl⟩
abbrev main_v60 : Ref sig .tc := ⟨.hbm, 106, rfl⟩
abbrev main_v61 : Ref sig .tc := ⟨.hbm, 107, rfl⟩
abbrev main_call5_v0 : Ref sig .tc := ⟨.hbm, 108, rfl⟩
abbrev main_call5_cst : Ref sig .tc := ⟨.hbm, 109, rfl⟩
abbrev main_call5_v1 : Ref sig .tc := ⟨.hbm, 110, rfl⟩
abbrev main_v62 : Ref sig .tc := ⟨.hbm, 111, rfl⟩
abbrev main_cst_18 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_19 : Ref sig .tc := ⟨.hbm, 117, rfl⟩
abbrev main_v67 : Ref sig .tc := ⟨.hbm, 118, rfl⟩
abbrev main_cst_20 : Ref sig .tc := ⟨.hbm, 119, rfl⟩
abbrev main_v68 : Ref sig .tc := ⟨.hbm, 120, rfl⟩
abbrev main_cst_21 : Ref sig .tc := ⟨.hbm, 121, rfl⟩
abbrev main_v69 : Ref sig .tc := ⟨.hbm, 122, rfl⟩

abbrev nD : Nat := 1
abbrev τ : Topo := Topo.v7x

variable {F : FTy → Type} [FloatOps F]

class Facts₀ : Prop where
  bcast_S_S2048x4096 : S_.BroadcastsInDim S2048x4096 (![] : Fin 0 → Fin S2048x4096.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x4096_0_1 : S2048x1.BroadcastsInDim S2048x4096 (![0, 1] : Fin 2 → Fin S2048x4096.rank)
  shapeCasts_S2048x4096_S8388608 : S2048x4096.ShapeCasts S8388608
  bcast_S_S4096000 : S_.BroadcastsInDim S4096000 (![] : Fin 0 → Fin S4096000.rank)
  bcast_S_S8388608 : S_.BroadcastsInDim S8388608 (![] : Fin 0 → Fin S8388608.rank)
  bcast_S8388608_S8388608x1_0 : S8388608.BroadcastsInDim S8388608x1 (![0] : Fin 1 → Fin S8388608x1.rank)
  shapeCasts_S4096000_S2048x2000 : S4096000.ShapeCasts S2048x2000
  reducesTo_S2048x2000_S2048_d1 : S2048x2000.ReducesTo [1] S2048
  h_S_ : 0 < S_.numel
  bcast_S2048x1_S2048x2000_0_1 : S2048x1.BroadcastsInDim S2048x2000 (![0, 1] : Fin 2 → Fin S2048x2000.rank)
  bcast_S_S2048 : S_.BroadcastsInDim S2048 (![] : Fin 0 → Fin S2048.rank)
  reducesTo_S2048_S_d0 : S2048.ReducesTo [0] S_
  scatter_S4096000_S8388608x1_S8388608_n_0_0_1_wf : ScatterDims.WF S4096000 S8388608x1 S8388608 [] [0] [0] 1

variable [Facts₀]

def scatter_S4096000_S8388608x1_S8388608_n_0_0_1 : ScatterDims S4096000 S8388608x1 S8388608 where
  updateWindowDims := []
  insertedWindowDims := [0]
  scatterDimsToOperandDims := [0]
  indexVectorDim := 1
  wf := scatter_S4096000_S8388608x1_S8388608_n_0_0_1_wf

class Facts : Prop extends Facts₀ where

variable [Facts]
-- ==== Proof.KernelPieces.lean ====
/-
  What each case of the kernel's body leaves behind, as plain values (for any float instance).

  The body keeps two accumulators (one per spectrum) across the 32 column tiles of a row block. On the first tile
  it stores zeros and adds the tile's partial histogram to them; on the others it adds the tile's partial
  histogram to what the tile before left; on the last it also forms the row block's cosines from the two finished
  accumulators and stores them into the output block. Every store covers its whole buffer, so what a buffer holds
  after the body is the payload of its last store, and a load after a store reads that store's payload.
-/
import proofs.«120698_j83373905149952_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The predicted accumulator after a tile: what it held plus the tile's partial histogram (m/z block x0,
    intensity block x1). -/
def accP (x0 x1 : Vec F S32x128 .f32) (acc : Vec F S32x16x128 .f32) : Vec F S32x16x128 .f32 :=
  k0_pay16 (k0_pay11 x0) x1 (iota .tc S32x128x16 32 [2] iota_S32x128x16_d2_w32)
    (iota .tc S32x128x128 32 [2] iota_S32x128x128_d2_w32) (k0_pay15 x0) acc

/-- The target accumulator after a tile (m/z block x2, intensity block x3, mask block x4). -/
def accT (x2 x3 x4 : Vec F S32x128 .f32) (acc : Vec F S32x16x128 .f32) : Vec F S32x16x128 .f32 :=
  k0_pay17 (k0_pay12 x2) (k0_pay13 x2) (k0_pay14 x3 x4) (iota .tc S32x128x16 32 [2] iota_S32x128x16_d2_w32)
    (iota .tc S32x128x128 32 [2] iota_S32x128x128_d2_w32) acc

/-- The row block's cosines from the two finished accumulators. -/
def cosBlock (s0 s1 : Vec F S32x16x128 .f32) : Vec F S32x1 .f32 :=
  k0_pay1 (k0_pay4 s0 s1) (k0_pay5 s0) (k0_pay6 s1)

section
variable (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x1 .f32) (harg7 : arg7.IsWhole) (arg8 : Memref sig .tc .vmem S32x16x128 .f32) (harg8 : arg8.IsWhole) (arg9 : Memref sig .tc .vmem S32x16x128 .f32) (harg9 : arg9.IsWhole)
variable (x0 x1 x2 x3 x4 : Vec F S32x128 .f32) (xs0 xs1 : Vec F S32x16x128 .f32)

/-- On a middle tile the predicted accumulator ends at its update of what the tile before left. -/
theorem sout_B_0 (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 x2 x3 x4 xs0 xs1 = accP x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz3]
  simp only [View.readAt_eq_ld, harg2.read_unread, harg3.read_unread, harg8.read_unread,
    View.ld_unit_zero (S := S32x128) hz2, View.ld_unit_zero (S := S32x16x128) hz3]
  rfl

theorem sout_B_1 (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 x2 x3 x4 xs0 xs1 = accT x2 x3 x4 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz3]
  simp only [View.readAt_eq_ld, harg4.read_unread, harg5.read_unread, harg6.read_unread, harg9.read_unread,
    View.ld_unit_zero (S := S32x128) hz2, View.ld_unit_zero (S := S32x16x128) hz3]
  rfl

/-- On the last tile the accumulators end as on a middle tile, -/
theorem sout_C_0 (hc0 : ¬cond0_0 i) (hc1 : cond0_1 i) :
    sout0_C_0 c i arg2 harg2 arg3 harg3 arg4 harg4 arg5 harg5 arg6 harg6 arg7 harg7 arg8 harg8 arg9 harg9 hc0 hc1 x0 x1 x2 x3 x4 xs0 xs1 = accP x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz3]
  simp only [View.readAt_eq_ld, harg2.read_unread, harg3.read_unread, harg8.read_unread,
    View.ld_unit_zero (S := S32x128) hz2, View.ld_unit_zero (S := S32x16x128) hz3]
  rfl

theorem sout_C_1 (hc0 : ¬cond0_0 i) (hc1 : cond0_1 i) :
    sout0_C_1 c i arg2 harg2 arg3 harg3 arg4 harg4 arg5 harg5 arg6 harg6 arg7 harg7 arg8 harg8 arg9 harg9 hc0 hc1 x0 x1 x2 x3 x4 xs0 xs1 = accT x2 x3 x4 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz3]
  simp only [View.readAt_eq_ld, harg4.read_unread, harg5.read_unread, harg6.read_unread, harg9.read_unread,
    View.ld_unit_zero (S := S32x128) hz2, View.ld_unit_zero (S := S32x16x128) hz3]
  rfl

/-- and the output block holds the cosines of the two finished accumulators (the loads after the two stores read
    what was stored). -/
theorem out_C_5 (hc0 : ¬cond0_0 i) (hc1 : cond0_1 i) :
    out0_C_5 c i arg2 harg2 arg3 harg3 arg4 harg4 arg5 harg5 arg6 harg6 arg7 harg7 arg8 harg8 arg9 harg9 hc0 hc1 x0 x1 x2 x3 x4 xs0 xs1 = cosBlock (accP x0 x1 xs0) (accT x2 x3 x4 xs1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz2]
  simp only [View.readCov_unit_zero (S := S32x16x128) _ hz3]
  simp only [View.readAt_eq_ld, harg2.read_unread, harg3.read_unread, harg4.read_unread, harg5.read_unread,
    harg6.read_unread, harg8.read_unread, harg9.read_unread,
    View.ld_unit_zero (S := S32x128) hz2, View.ld_unit_zero (S := S32x16x128) hz3]
  rfl

/-- On the first tile the accumulators are first stored at zeros, and end at their updates of the zeros. -/
theorem sout_A_0 (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4 = accP x0 x1 k0_pay7 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S32x16x128) hz3, View.readCov_unit_zero (S := S32x16x128) _ hz3]
  simp only [View.readAt_eq_ld, harg2.read_unread, harg3.read_unread,
    View.ld_unit_zero (S := S32x128) hz2]
  rfl

theorem sout_A_1 (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 x4 = accT x2 x3 x4 k0_pay8 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S32x16x128) hz3, View.readCov_unit_zero (S := S32x16x128) _ hz3]
  simp only [View.readAt_eq_ld, harg4.read_unread, harg5.read_unread, harg6.read_unread,
    View.ld_unit_zero (S := S32x128) hz2]
  rfl

end

end Cert.KernelIdeal.Pieces

end
-- ==== Proof.BinWords.lean ====
/-
  Facts about the 32-bit bin words.

  A bin word is an integer word clipped into 0 … 1999. Such a word is determined by its high part (the word
  shifted right by 7 places) and its low part (the word masked with 127): the pair (k1, k0) with k1 < 16 and
  k0 < 128 names the word 128·k1 + k0. In the flat numbering, row r and bin word b together make the word
  2000·r + b, which stays far below 2^31, so it is never negative as a signed word and the two summands can be
  read back from it.
-/
import Mathlib
import Idealize.ShloMosaic.PureOps.Float
import Idealize.ShloMosaic.PureOps.Ideal

namespace Cert.Hist

open Idealize.ShloMosaic

/-- A word clipped into 0 … 1999: the larger of 0 and the word, then the smaller of 1999 and that. -/
def clipW (w : BitVec 32) : BitVec 32 := IntOp.minsi 1999#32 (IntOp.maxsi 0#32 w)

/-- A clipped word, read as a natural number, is at most 1999. -/
theorem clipW_toNat_le (w : BitVec 32) : (clipW w).toNat ≤ 1999 := by
  unfold clipW IntOp.minsi IntOp.maxsi
  by_cases h0 : w.slt 0#32 = true
  · rw [if_pos h0, if_neg (by decide)]; decide
  · rw [if_neg h0]
    by_cases h1 : (1999#32 : BitVec 32).slt w = true
    · rw [if_pos h1]; decide
    · rw [if_neg h1]
      rw [BitVec.slt_iff_toInt_lt] at h0 h1
      have e := BitVec.toInt_eq_toNat_cond w
      have h2 : (0#32 : BitVec 32).toInt = 0 := by decide
      have h3 : (1999#32 : BitVec 32).toInt = 1999 := by decide
      have hlt := w.isLt
      have hp : (2 : Nat) ^ 32 = 4294967296 := by norm_num
      rw [h2] at h0
      rw [h3] at h1
      split at e <;> omega

/-- The high part of a small word: its value divided by 128. -/
theorem shr7_toNat (b : BitVec 32) (hb : b.toNat ≤ 1999) : (IntOp.shrsi .vector b 7#32).toNat = b.toNat / 128 := by
  unfold IntOp.shrsi
  rw [if_pos (by decide)]
  have hm : b.msb = false := by
    rw [BitVec.msb_eq_false_iff_two_mul_lt]
    have hp : (2 : Nat) ^ 32 = 4294967296 := by norm_num
    omega
  rw [BitVec.toNat_sshiftRight'_of_msb_false hm]
  show b.toNat >>> 7 = _
  rw [Nat.shiftRight_eq_div_pow]

/-- The low part of a word: its value modulo 128. -/
theorem and127_toNat (b : BitVec 32) : (IntOp.andi b 127#32).toNat = b.toNat % 128 := by
  unfold IntOp.andi
  rw [BitVec.toNat_and]
  show b.toNat &&& 127 = _
  exact Nat.and_two_pow_sub_one_eq_mod b.toNat 7

/-- A small word has high part k1 and low part k0 exactly when it is the word 128·k1 + k0. -/
theorem split_word (b : BitVec 32) (hb : b.toNat ≤ 1999) (k1 k0 : Nat) (h1 : k1 < 16) (h0 : k0 < 128) :
    (IntOp.shrsi .vector b 7#32 = BitVec.ofNat 32 k1 ∧ IntOp.andi b 127#32 = BitVec.ofNat 32 k0)
      ↔ b = BitVec.ofNat 32 (128 * k1 + k0) := by
  have hp : (2 : Nat) ^ 32 = 4294967296 := by norm_num
  rw [← BitVec.toNat_inj, ← BitVec.toNat_inj, ← BitVec.toNat_inj, shr7_toNat b hb, and127_toNat,
    BitVec.toNat_ofNat, BitVec.toNat_ofNat, BitVec.toNat_ofNat,
    Nat.mod_eq_of_lt (by omega : k1 < 2 ^ 32), Nat.mod_eq_of_lt (by omega : k0 < 2 ^ 32),
    Nat.mod_eq_of_lt (by omega : 128 * k1 + k0 < 2 ^ 32)]
  omega

/-- A small word is not one of the words 2000 … 2047. -/
theorem ne_pad (b : BitVec 32) (hb : b.toNat ≤ 1999) (k : Nat) (h0 : 2000 ≤ k) (h1 : k < 2048) :
    b ≠ BitVec.ofNat 32 k := by
  intro h
  have hp : (2 : Nat) ^ 32 = 4294967296 := by norm_num
  have := congrArg BitVec.toNat h
  rw [BitVec.toNat_ofNat, Nat.mod_eq_of_lt (by omega : k < 2 ^ 32)] at this
  omega

/-- The flat word of row r' and bin word b, adjusted as an index is (a negative word moved up by the length),
    read as a signed integer, is 2000·r' + b: it is never negative. -/
theorem flat_word (r' : Nat) (hr' : r' < 2048) (b : BitVec 32) (hb : b.toNat ≤ 1999) :
    (Scalar.select (IntOp.cmpi .slt (IntOp.addi (IntOp.muli (BitVec.ofNat 32 r') 2000#32) b) 0#32)
      (IntOp.addi (IntOp.addi (IntOp.muli (BitVec.ofNat 32 r') 2000#32) b) 4096000#32)
      (IntOp.addi (IntOp.muli (BitVec.ofNat 32 r') 2000#32) b)).toInt = ((2000 * r' + b.toNat : Nat) : Int) := by
  have hp : (2 : Nat) ^ 32 = 4294967296 := by norm_num
  have hv : (IntOp.addi (IntOp.muli (BitVec.ofNat 32 r') 2000#32) b).toNat = 2000 * r' + b.toNat := by
    unfold IntOp.addi IntOp.muli
    rw [BitVec.toNat_add, BitVec.toNat_mul, BitVec.toNat_ofNat, Nat.mod_eq_of_lt (by omega : r' < 2 ^ 32)]
    show (r' * 2000 % 2 ^ 32 + b.toNat) % 2 ^ 32 = _
    rw [Nat.mod_eq_of_lt (by omega : r' * 2000 < 2 ^ 32), Nat.mod_eq_of_lt (by omega)]
    omega
  have hi : (IntOp.addi (IntOp.muli (BitVec.ofNat 32 r') 2000#32) b).toInt = ((2000 * r' + b.toNat : Nat) : Int) := by
    rw [BitVec.toInt_eq_toNat_of_lt (by rw [hv]; omega), hv]
  have hc : IntOp.cmpi .slt (IntOp.addi (IntOp.muli (BitVec.ofNat 32 r') 2000#32) b) 0#32 = 0#1 := by
    unfold IntOp.cmpi
    show BitVec.ofBool ((IntOp.addi (IntOp.muli (BitVec.ofNat 32 r') 2000#32) b).slt 0#32) = 0#1
    rw [BitVec.slt_eq_decide, hi]
    have h2 : (0#32 : BitVec 32).toInt = 0 := by decide
    rw [h2, decide_eq_false (by omega)]
    rfl
  rw [hc]
  unfold Scalar.select
  rw [if_neg (by decide)]
  exact hi

/-- Two flat numbers 2000·r' + b and 2000·r + k with b ≤ 1999 and k < 2000 are equal exactly when the rows and
    the bin words are. -/
theorem flat_eq_iff (r' r : Nat) (b : BitVec 32) (hb : b.toNat ≤ 1999) (k : Nat) (hk : k < 2000) :
    ((2000 * r' + b.toNat : Nat) : Int) = ((2000 * r + k : Nat) : Int) ↔ r' = r ∧ b = BitVec.ofNat 32 k := by
  have hp : (2 : Nat) ^ 32 = 4294967296 := by norm_num
  rw [← BitVec.toNat_inj, BitVec.toNat_ofNat, Nat.mod_eq_of_lt (by omega : k < 2 ^ 32)]
  omega

/-- At the ideal values, the number a compare of two words for equality becomes — the compare's bit widened
    to 32 bits and converted as a signed integer — is 1 where the words are equal and 0 elsewhere. -/
theorem onehot (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  unfold IntOp.cmpi
  by_cases h : a = b
  · subst h
    rw [if_pos rfl]
    show ((((BitVec.ofBool (a == a)).setWidth 32).toInt : ℝ) : EReal) = 1
    rw [beq_self_eq_true]
    have : ((BitVec.ofBool true).setWidth 32).toInt = 1 := by decide
    rw [this]; norm_num
  · rw [if_neg h]
    show ((((BitVec.ofBool (a == b)).setWidth 32).toInt : ℝ) : EReal) = 0
    rw [beq_eq_false_iff_ne.mpr h]
    have : ((BitVec.ofBool false).setWidth 32).toInt = 0 := by decide
    rw [this]; norm_num

end Cert.Hist
-- ==== Proof.LibBandSum.lean ====
/-
  A sum over 2048 consecutive indices, split into 8 bands of 256.

  A sum over the first m · n naturals is the sum, over the bands j < m, of the sums over the n naturals starting at
  n · j: one band more adds the n indices from n · m on. Both sides of the identity are such sums, a sum over `Fin k` of a
  function of the value being the sum over the first k naturals.
-/
import Mathlib.Data.Fintype.BigOperators
import Mathlib.Algebra.BigOperators.Intervals

namespace Cert.Lib

/-- The first m · n naturals, band by band: m bands of n consecutive indices, band j starting at n · j. -/
theorem sum_range_bands {M : Type*} [AddCommMonoid M] (f : ℕ → M) (n : ℕ) :
    ∀ m : ℕ, ∑ j ∈ Finset.range m, ∑ p ∈ Finset.range n, f (n * j + p) = ∑ q ∈ Finset.range (m * n), f q
  | 0 => by rw [Finset.sum_range_zero, Nat.zero_mul, Finset.sum_range_zero]
  | m + 1 => by
    rw [Finset.sum_range_succ, sum_range_bands f n m, Nat.add_one_mul, Finset.sum_range_add, Nat.mul_comm n m]

/-- Eight bands of 256 make up the first 2048 indices. -/
theorem sum_bands {M : Type*} [AddCommMonoid M] (f : ℕ → M) :
    ∑ j ∈ Finset.range 8, ∑ p : Fin 256, f (256 * j + p.val) = ∑ q : Fin 2048, f q.val := by
  have h : ∑ q : Fin 2048, f q.val = ∑ q ∈ Finset.range (8 * 256), f q := Fin.sum_univ_eq_sum_range f 2048
  rw [h, ← sum_range_bands f 256 8]
  exact Finset.sum_congr rfl fun j _ => Fin.sum_univ_eq_sum_range (fun p => f (256 * j + p)) 256

end Cert.Lib
-- ==== Proof.LibLayerNorm.lean ====
/-
  Three facts about the extended reals behind a layer norm.

  A layer norm divides a centred entry by the square root of a variance plus a positive offset. One program
  writes the quotient `a / sqrt y`, another the product `a * rsqrt y` with the reciprocal square root. On the
  extended reals the two agree whenever `0 < y`: at `y = ⊤` both are `a * 0`, and at a positive real `y` the
  reciprocal square root is the inverse of a nonzero real. The argument `y` is positive because a variance is a
  sum of squares divided by a positive real, hence nonnegative (a square is nonnegative at the infinities too),
  and the offset is a positive real.
-/
import Mathlib.Data.EReal.Inv
import Idealize.ShloMosaic.PureOps.Ideal

namespace Cert.Lib

open Idealize.ShloMosaic

/-- Multiplying by the reciprocal square root is dividing by the square root, for a positive argument:
    at `⊤` both sides are `a * 0`; at a positive real the square root is a nonzero real and the reciprocal
    square root is its inverse. -/
theorem mul_rsqrt_eq_div_sqrt (a y : EReal) (hy : 0 < y) : a * Ideal.rsqrt y = Ideal.div a (Ideal.sqrt y) := by
  induction y using EReal.rec with
  | bot => exact absurd hy (not_lt.2 bot_le)
  | top =>
    rw [Ideal.rsqrt_top, Ideal.sqrt_top, Ideal.div, if_neg EReal.top_ne_zero, EReal.inv_top]
  | coe r =>
    have hr : 0 < r := EReal.coe_pos.1 hy
    have hs : Real.sqrt r ≠ 0 := (Real.sqrt_pos.2 hr).ne'
    rw [Ideal.rsqrt_coe, Ideal.sqrt_coe, if_neg (not_lt.2 hr.le), if_neg hr.ne', if_neg (not_lt.2 hr.le),
      Ideal.div, if_neg (by exact_mod_cast hs), EReal.coe_inv]

/-- A square is nonnegative on the extended reals: `⊥ * ⊥ = ⊤ * ⊤ = ⊤`, and a real square is nonnegative. -/
theorem mul_self_nonneg (a : EReal) : 0 ≤ a * a := by
  induction a using EReal.rec with
  | bot => rw [EReal.bot_mul_bot]; exact le_top
  | top => rw [EReal.top_mul_top]; exact le_top
  | coe r => rw [← EReal.coe_mul]; exact EReal.coe_nonneg.2 (_root_.mul_self_nonneg r)

/-- A nonnegative extended real divided by a positive real is nonnegative: the quotient is the product with
    the positive real `1 / c`. -/
theorem div_coe_nonneg {s : EReal} (hs : 0 ≤ s) {c : ℝ} (hc : 0 < c) : 0 ≤ Ideal.div s (c : EReal) := by
  rw [Ideal.div_coe hc.ne']
  exact EReal.mul_nonneg hs (EReal.coe_nonneg.2 (one_div_pos.2 hc).le)

/-- A nonnegative extended real plus a positive real is positive. -/
theorem pos_of_nonneg_add_pos {v : EReal} (hv : 0 ≤ v) {e : ℝ} (he : 0 < e) : 0 < v + (e : EReal) :=
  lt_of_lt_of_le (EReal.coe_pos.2 he) (le_add_of_nonneg_left hv)

end Cert.Lib
-- ==== Proof.Spec.lean ====
/-
  The specification: a binned cosine loss, row by row, on the extended reals.

  Each entry x of a row of m/z values gets a bin word: x times 2000, converted to a signed 32-bit integer
  (toward zero, saturating), clipped into 0 … 1999. A row's histogram at a bin word w is the sum of the row's
  intensities at the entries whose bin word is w. From the two histograms P and T of a row (predicted and
  target), each indexed by the bin number, the row's cosine is

      ( Σ_k p_k · t_k ) / ( max(‖p‖, ε) · max(‖t‖, ε) ),   p_k = P_k / (‖P‖ + ε),  t_k = T_k / (‖T‖ + ε),

  with ‖·‖ the square root of the sum of squares and ε the f32 word 0x322BCC77, a positive real. The loss is
  1 − (Σ_r cosine_r) / 2048.

  The sum over the bins may run over the 2000 bins, or over 16 × 128 = 2048 cells (k1, k0) read as the bin
  128·k1 + k0. A histogram vanishes at the 48 cells past 1999 (no bin word is one of them), a vanishing entry
  divided by a nonzero norm is 0, and 0 times anything is 0 on the extended reals, so the two ways of summing
  agree for every term above. The norms plus ε are nonzero because a sum of squares is nonnegative (a square is
  nonnegative at the infinities too), its square root is nonnegative, and ε is a positive real. No entry needs to
  be finite for any of this.
-/
import Mathlib
import Idealize.ShloMosaic.PureOps.Ideal
import Idealize.ShloMosaic.Lib.ValueIdx
import proofs.«120698_j83373905149952_2_alg».proof.Proof.BinWords
import proofs.«120698_j83373905149952_2_alg».proof.Proof.LibBandSum
import proofs.«120698_j83373905149952_2_alg».proof.Proof.LibLayerNorm

noncomputable section

open scoped BigOperators

namespace Cert.Hist

open Idealize.ShloMosaic Idealize.ShloMosaic.ValueIdx

/-- The scale 2000 as the f32 word both programs print. -/
abbrev c2000 : EReal := Ideal.ofBits .f32 0x44FA0000#32
/-- ε as the f32 word both programs print. -/
abbrev eps : EReal := Ideal.ofBits .f32 0x322BCC77#32

/-- ε is a positive real. -/
theorem eps_real : ∃ e : ℝ, 0 < e ∧ eps = (e : EReal) :=
  ⟨((2 ^ 23 + 2870391 : Nat) : ℝ) * (2 : ℝ) ^ ((100 : Int) - 127 - 23), by positivity, by
    show Ideal.ofBits .f32 0x322BCC77#32 = _
    simp [Ideal.ofBits, Ideal.ieee]⟩

/-- The bin word of an m/z entry. -/
def binW (x : EReal) : BitVec 32 := clipW (Ideal.fptosi 32 (x * c2000))

theorem binW_le (x : EReal) : (binW x).toNat ≤ 1999 := clipW_toNat_le _

/-! ## A row's histogram -/

/-- One entry's contribution to the histogram at the bin word w. -/
def colTerm (mz val : ℕ → EReal) (w : BitVec 32) (c : ℕ) : EReal := if binW (mz c) = w then val c else 0

/-- The histogram of the first J entries of a row given by its columns. -/
def histUpTo (mz val : ℕ → EReal) (w : BitVec 32) (J : ℕ) : EReal := ∑ c ∈ Finset.range J, colTerm mz val w c

/-- n more entries add their n contributions. -/
theorem histUpTo_add (mz val : ℕ → EReal) (w : BitVec 32) (J n : ℕ) :
    histUpTo mz val w (J + n) = histUpTo mz val w J + ∑ p : Fin n, colTerm mz val w (J + p.val) := by
  unfold histUpTo
  rw [Finset.sum_range_add, Fin.sum_univ_eq_sum_range (fun p => colTerm mz val w (J + p)) n]

theorem histUpTo_zero (mz val : ℕ → EReal) (w : BitVec 32) : histUpTo mz val w 0 = 0 := by
  unfold histUpTo; rw [Finset.sum_range_zero]

/-- A row's histogram at the bin word w. -/
def hist {n : Nat} (mz val : Fin n → EReal) (w : BitVec 32) : EReal :=
  ∑ c : Fin n, if binW (mz c) = w then val c else 0

/-- The histogram of all n entries of a row given by its columns is the row's histogram. -/
theorem histUpTo_all {n : Nat} (mz val : ℕ → EReal) (mz' val' : Fin n → EReal) (hm : ∀ c : Fin n, mz c.val = mz' c)
    (hv : ∀ c : Fin n, val c.val = val' c) (w : BitVec 32) : histUpTo mz val w n = hist mz' val' w := by
  unfold histUpTo hist
  rw [← Fin.sum_univ_eq_sum_range (fun c => colTerm mz val w c) n]
  exact Finset.sum_congr rfl fun c _ => by unfold colTerm; rw [hm c, hv c]

/-- No entry's bin word is one of 2000 … 2047: the histogram vanishes there. -/
theorem hist_pad {n : Nat} (mz val : Fin n → EReal) (k : Nat) (h0 : 2000 ≤ k) (h1 : k < 2048) :
    hist mz val (BitVec.ofNat 32 k) = 0 :=
  Finset.sum_eq_zero fun c _ => if_neg (ne_pad _ (binW_le _) k h0 h1)

/-! ## Two ways of summing over the bins -/

/-- Over 16 × 128 cells, cell (k1, k0) the bin 128·k1 + k0. -/
def sumK (g : ℕ → EReal) : EReal := ∑ k1 : Fin 16, ∑ k0 : Fin 128, g (128 * k1.val + k0.val)
/-- Over the 2000 bins. -/
def sumR (g : ℕ → EReal) : EReal := ∑ k : Fin 2000, g k.val

/-- They agree on a function that vanishes on 2000 … 2047. -/
theorem sumK_eq_sumR (g : ℕ → EReal) (hg : ∀ k, 2000 ≤ k → k < 2048 → g k = 0) : sumK g = sumR g := by
  unfold sumK sumR
  rw [Fin.sum_univ_eq_sum_range (fun k1 => ∑ k0 : Fin 128, g (128 * k1 + k0.val)) 16]
  have hb : ∀ j ∈ Finset.range 16, ∑ k0 : Fin 128, g (128 * j + k0.val) = ∑ p ∈ Finset.range 128, g (128 * j + p) :=
    fun j _ => Fin.sum_univ_eq_sum_range (fun p => g (128 * j + p)) 128
  rw [Finset.sum_congr rfl hb, Cert.Lib.sum_range_bands g 128 16, Fin.sum_univ_eq_sum_range g 2000,
    show 16 * 128 = 2000 + 48 from rfl, Finset.sum_range_add]
  rw [Finset.sum_eq_zero (s := Finset.range 48) fun x hx => hg (2000 + x) (by omega) (by
    have := Finset.mem_range.mp hx; omega), add_zero]

/-! ## A row's cosine -/

/-- The norm of a vector of bins under a way of summing. -/
def normOf (S : (ℕ → EReal) → EReal) (P : ℕ → EReal) : EReal := Ideal.sqrt (S fun k => P k * P k)
/-- The vector divided by its norm plus ε. -/
def unitOf (S : (ℕ → EReal) → EReal) (P : ℕ → EReal) : ℕ → EReal := fun k => Ideal.div (P k) (normOf S P + eps)
/-- The cosine of two histograms. -/
def cosOf (S : (ℕ → EReal) → EReal) (P T : ℕ → EReal) : EReal :=
  Ideal.div (S fun k => unitOf S P k * unitOf S T k)
    (max (normOf S (unitOf S P)) eps * max (normOf S (unitOf S T)) eps)

theorem sqrt_nonneg {x : EReal} (hx : 0 ≤ x) : 0 ≤ Ideal.sqrt x := by
  induction x using EReal.rec with
  | bot => exact absurd hx (by simp)
  | top => rw [Ideal.sqrt_top]; exact le_top
  | coe r =>
    rw [Ideal.sqrt_coe, if_neg (not_lt.2 (EReal.coe_nonneg.1 hx))]
    exact EReal.coe_nonneg.2 (Real.sqrt_nonneg r)

theorem sumR_nonneg (g : ℕ → EReal) (hg : ∀ k, 0 ≤ g k) : 0 ≤ sumR g :=
  Finset.sum_nonneg fun k _ => hg k.val

/-- A norm plus ε is not zero. -/
theorem norm_add_eps_ne_zero (P : ℕ → EReal) : normOf sumR P + eps ≠ 0 := by
  obtain ⟨e, he, h⟩ := eps_real
  rw [h]
  exact (Cert.Lib.pos_of_nonneg_add_pos (sqrt_nonneg (sumR_nonneg _ fun k => Cert.Lib.mul_self_nonneg _)) he).ne'

theorem div_zero_left {y : EReal} (hy : y ≠ 0) : Ideal.div 0 y = 0 := by
  unfold Ideal.div; rw [if_neg hy, zero_mul]

theorem normOf_pad (P : ℕ → EReal) (hP : ∀ k, 2000 ≤ k → k < 2048 → P k = 0) : normOf sumK P = normOf sumR P := by
  unfold normOf
  rw [sumK_eq_sumR _ fun k h0 h1 => by rw [hP k h0 h1, zero_mul]]

theorem unitOf_pad (P : ℕ → EReal) (hP : ∀ k, 2000 ≤ k → k < 2048 → P k = 0) : unitOf sumK P = unitOf sumR P := by
  unfold unitOf; rw [normOf_pad P hP]

theorem unitOf_vanish (P : ℕ → EReal) (hP : ∀ k, 2000 ≤ k → k < 2048 → P k = 0) :
    ∀ k, 2000 ≤ k → k < 2048 → unitOf sumR P k = 0 := fun k h0 h1 => by
  unfold unitOf; rw [hP k h0 h1, div_zero_left (norm_add_eps_ne_zero P)]

/-- Summing over the 2048 cells or over the 2000 bins gives the same cosine, for histograms that vanish on the
    48 cells past 1999. -/
theorem cosOf_pad (P T : ℕ → EReal) (hP : ∀ k, 2000 ≤ k → k < 2048 → P k = 0)
    (hT : ∀ k, 2000 ≤ k → k < 2048 → T k = 0) : cosOf sumK P T = cosOf sumR P T := by
  unfold cosOf
  rw [unitOf_pad P hP, unitOf_pad T hT, normOf_pad _ (unitOf_vanish P hP), normOf_pad _ (unitOf_vanish T hT),
    sumK_eq_sumR _ fun k h0 h1 => by rw [unitOf_vanish P hP k h0 h1, zero_mul]]

/-! ## The loss of whole arrays -/

/-- A [2048, 4096] array of extended reals. -/
abbrev Arr := (⟨2, ![2048, 4096]⟩ : Shape).Idx → EReal

/-- Row r's predicted histogram, by bin number. -/
def predH (A0 A1 : Arr) (r : Fin 2048) (k : ℕ) : EReal :=
  hist (fun c : Fin 4096 => A0 (ix2 r c)) (fun c => A1 (ix2 r c)) (BitVec.ofNat 32 k)
/-- Row r's target histogram (intensity times mask), by bin number. -/
def targH (A2 A3 A4 : Arr) (r : Fin 2048) (k : ℕ) : EReal :=
  hist (fun c : Fin 4096 => A2 (ix2 r c)) (fun c => A3 (ix2 r c) * A4 (ix2 r c)) (BitVec.ofNat 32 k)

/-- Row r's cosine under a way of summing over the bins. -/
def cosRow (S : (ℕ → EReal) → EReal) (A0 A1 A2 A3 A4 : Arr) (r : Fin 2048) : EReal :=
  cosOf S (predH A0 A1 r) (targH A2 A3 A4 r)

theorem cosRow_pad (A0 A1 A2 A3 A4 : Arr) (r : Fin 2048) :
    cosRow sumK A0 A1 A2 A3 A4 r = cosRow sumR A0 A1 A2 A3 A4 r :=
  cosOf_pad _ _ (fun k h0 h1 => hist_pad _ _ k h0 h1) (fun k h0 h1 => hist_pad _ _ k h0 h1)

/-- One minus the mean of the rows' cosines, with the literals both programs print (1, 0 and 2048 as f32 words). -/
def lossOf (cosr : Fin 2048 → EReal) : EReal :=
  Ideal.ofBits .f32 0x3F800000#32
    - Ideal.div (Ideal.ofBits .f32 0x00000000#32 + ∑ r : Fin 2048, cosr r) (Ideal.ofBits .f32 0x45000000#32)

/-- The loss of the five argument arrays. -/
def loss (A0 A1 A2 A3 A4 : Arr) : EReal := lossOf fun r => cosRow sumR A0 A1 A2 A3 A4 r

end Cert.Hist

end
-- ==== Proof.LibStackCols.lean ====
/-
  A stack of matrix products that contract the middle axis of both operands, and a column stack repeated over
  two axes.

  For stacks A of shape [G, k, a] and B of shape [G, k, b], the product with batch axis 0 on both sides and
  contracting axis 1 on both sides has shape [G, a, b], and its entry (g, p, q) is the sum over c of
  A(g, c, p) · B(g, c, q): member g's transposed left matrix times its right matrix. At the ideal values a
  tpu.matmul with these dimension numbers into the zero accumulator is exactly that sum.
  A [a, 1, 1] stack repeated to [a, b, n] reads, at (p, q, k), its entry (p, 0, 0).
-/
import Idealize.ShloMosaic.PureOps.Ideal.Laws
import Idealize.ShloMosaic.Lib.ValueIdx
import Idealize.ShloMosaic.Lib.ValueLayout

namespace Cert.Lib

open Idealize.ShloMosaic Idealize.ShloMosaic.ValueIdx

/-- The dimension numbers: contract axis 1 of both operands, batch axis 0 of both. -/
abbrev stackCols (G k a b : Nat)
    (w : DotDims.WF ⟨3, ![G, k, a]⟩ ⟨3, ![G, k, b]⟩ ⟨3, ![G, a, b]⟩ [1] [1] [2] [2] [0] [0]) :
    DotDims ⟨3, ![G, k, a]⟩ ⟨3, ![G, k, b]⟩ ⟨3, ![G, a, b]⟩ := ⟨[1], [1], [2], [2], [0], [0], w⟩

/-- The product into the zero accumulator, read at (g, p, q), is the sum over the contracted coordinate. -/
theorem stackCols_matmul_zero_apply {G k a b : Nat} {φ₁ φ₂ : FTy}
    (w : DotDims.WF ⟨3, ![G, k, a]⟩ ⟨3, ![G, k, b]⟩ ⟨3, ![G, a, b]⟩ [1] [1] [2] [2] [0] [0])
    (prec : Option ContractPrecision) (A : FVec Ideal ⟨3, ![G, k, a]⟩ φ₁) (B : FVec Ideal ⟨3, ![G, k, b]⟩ φ₂)
    (g : Fin G) (p : Fin a) (q : Fin b) :
    FloatOps.matmul (stackCols G k a b w) prec A B (constant ⟨3, ![G, a, b]⟩ .f32 0x00000000#32) (ix3 g p q)
      = ∑ c : Fin k, A (ix3 g c p) * B (ix3 g c q) := by
  rw [Ideal.matmul_constant_zero_apply, ← Equiv.sum_comp (contrEquiv1 (stackCols G k a b w) k rfl rfl).symm]
  refine Finset.sum_congr rfl fun c _ => ?_
  have c3 := contrEquiv1_symm_val (stackCols G k a b w) k rfl rfl c
  have l3 : (stackCols G k a b w).lhsIdx (ix3 g p q) ((contrEquiv1 _ k rfl rfl).symm c) = ix3 g c p := by
    funext ax; apply Fin.ext
    match ax with
    | ⟨0, _⟩ => simp [DotDims.lhsIdx]; rfl
    | ⟨1, _⟩ => simp [DotDims.lhsIdx]; exact c3
    | ⟨2, _⟩ => simp [DotDims.lhsIdx]; rfl
  have r3 : (stackCols G k a b w).rhsIdx (ix3 g p q) ((contrEquiv1 _ k rfl rfl).symm c) = ix3 g c q := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
  rw [l3, r3]

/-- A [a, 1, 1] stack repeated to [a, b, n] reads, at (p, q, k), the operand at (p, 0, 0). -/
theorem broadcastTo_a11_abn_apply {α : Type} {a b n : ℕ} (x : (⟨3, ![a, 1, 1]⟩ : Shape).Idx → α)
    (h : (⟨3, ![a, 1, 1]⟩ : Shape).Broadcasts ⟨3, ![a, b, n]⟩) (p : Fin a) (q : Fin b) (k : Fin n) :
    broadcastTo ⟨3, ![a, b, n]⟩ x h (ix3 p q k) = x (ix3 p (0 : Fin 1) (0 : Fin 1)) := by
  refine broadcastTo_apply x h (ix3 p q k) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.Lib
-- ==== Proof.LibLaneReads.lean ====
/-
  Layout operations on a stack of rows, read at an index given by coordinates.

  A value computed per row `(p, q)` of an `[a, b]` grid against a short table of `n` entries lives in an
  `[a, b, n]` array. Two operands meet there: the table, one vector of `n` entries repeated for every row, and the
  rows' own scalar, one `[a, b]` matrix repeated along the last axis. A vector program makes the first by casting the
  vector to `[1, 1, n]` and broadcasting, and the second by casting the matrix to `[a, b, 1]` and broadcasting; a host
  program makes both by `broadcast_in_dim`. Read at `(p, q, i)` the first is the table at `i` and the second the
  matrix at `(p, q)`, whichever way they were made. Beside them: a vector and the last axis of an `[a, b, N]` array cut
  from an offset `o`, read at `i`, are the operand at `i + o`; a scalar broadcast anywhere is the scalar; and a
  trailing unit axis added by `broadcast_in_dim` changes nothing.
-/
import Idealize.ShloMosaic.Lib.ValueLayout

namespace Cert.Lib

open Idealize.ShloMosaic Idealize.ShloMosaic.ValueIdx

variable {α : Type}

/-! ## Cuts from an offset -/

/-- A vector cut from `o` reads, at `i`, the operand at `i + o`. -/
theorem slice1_eq {N n : ℕ} (o : ℕ) (v : (⟨1, ![N]⟩ : Shape).Idx → α)
    (h : (⟨1, ![N]⟩ : Shape).Slices ![o] ⟨1, ![n]⟩) (i : Fin n) :
    extractStridedSlice ⟨1, ![n]⟩ ![o] v h (ix1 i)
      = v (ix1 ⟨i.val + o, Nat.lt_of_lt_of_le (Nat.add_lt_add_right i.isLt o) ((Nat.add_comm n o).trans_le (h.2 0))⟩) :=
  extractStridedSlice_apply _ _ _ _ _ (fun ax => by
    match ax with
    | ⟨0, _⟩ => exact Nat.add_comm _ _)

/-- An `[a, b, N]` array cut along its last axis from `o` reads, at `(p, q, i)`, the operand at `(p, q, i + o)`. -/
theorem slice3_last_eq {a b N n : ℕ} (o : ℕ) (X : (⟨3, ![a, b, N]⟩ : Shape).Idx → α)
    (h : (⟨3, ![a, b, N]⟩ : Shape).Slices ![0, 0, o] ⟨3, ![a, b, n]⟩) (p : Fin a) (q : Fin b) (i : Fin n) :
    extractStridedSlice ⟨3, ![a, b, n]⟩ ![0, 0, o] X h (ix3 p q i)
      = X (ix3 p q ⟨i.val + o, Nat.lt_of_lt_of_le (Nat.add_lt_add_right i.isLt o) ((Nat.add_comm n o).trans_le (h.2 2))⟩) :=
  extractStridedSlice_apply _ _ _ _ _ (fun ax => by
    match ax with
    | ⟨0, _⟩ => exact (Nat.zero_add _).symm
    | ⟨1, _⟩ => exact (Nat.zero_add _).symm
    | ⟨2, _⟩ => exact Nat.add_comm _ _)

/-! ## A vector program's casts and broadcasts -/

/-- An `[a, b]` matrix cast to the column stack `[a, b, 1]` reads, at `(p, q, u)`, the matrix at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A vector of `n` entries cast to `[1, 1, n]` and broadcast to `[a, b, n]` reads, at `(p, q, i)`, entry `i`. -/
theorem broadcastTo_row_apply {a b n : ℕ} (v : (⟨1, ![n]⟩ : Shape).Idx → α)
    (h1 : (⟨1, ![n]⟩ : Shape).ShapeCasts ⟨3, ![1, 1, n]⟩) (h2 : (⟨3, ![1, 1, n]⟩ : Shape).Broadcasts ⟨3, ![a, b, n]⟩)
    (p : Fin a) (q : Fin b) (i : Fin n) :
    broadcastTo ⟨3, ![a, b, n]⟩ (shapeCast ⟨3, ![1, 1, n]⟩ v h1) h2 (ix3 p q i) = v (ix1 i) := by
  refine (broadcastTo_apply _ h2 (ix3 p q i) (ix3 (0 : Fin 1) (0 : Fin 1) i) fun ax => ?_).trans ?_
  · match ax with
    | ⟨0, _⟩ => rfl
    | ⟨1, _⟩ => rfl
    | ⟨2, _⟩ =>
      show i.val = if n = 1 then 0 else i.val
      split
      · have := i.isLt; omega
      · rfl
  · exact shapeCast_apply v h1 _ _ (by
      rw [Shape.rowMajor_val_one, Shape.rowMajor_val_three]
      show i.val = (0 * 1 + 0) * n + i.val
      omega)

/-- A column stack `[a, b, 1]` broadcast along its last axis to `[a, b, n]` reads, at `(p, q, i)`, row `(p, q)`'s
    one entry. -/
theorem broadcastTo_col_apply {a b n : ℕ} (x : (⟨3, ![a, b, 1]⟩ : Shape).Idx → α)
    (h : (⟨3, ![a, b, 1]⟩ : Shape).Broadcasts ⟨3, ![a, b, n]⟩) (p : Fin a) (q : Fin b) (i : Fin n) :
    broadcastTo ⟨3, ![a, b, n]⟩ x h (ix3 p q i) = x (ix3 p q (0 : Fin 1)) := by
  refine broadcastTo_apply x h (ix3 p q i) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## A host program's `broadcast_in_dim`s

The axis map is a variable here, with an equation saying which map it is: a rewrite then matches the operation
whatever the spelling of its map, and the equation is closed on the spot. -/

/-- An `[a, b]` matrix given a trailing unit axis reads, at `(p, q, u)`, the matrix at `(p, q)`. -/
theorem broadcastInDim_ab_ab1_apply {a b : ℕ} (dims : Fin 2 → Fin 3) (x : (⟨2, ![a, b]⟩ : Shape).Idx → α)
    (h : (⟨2, ![a, b]⟩ : Shape).BroadcastsInDim ⟨3, ![a, b, 1]⟩ dims) (p : Fin a) (q : Fin b) (u : Fin 1)
    (hd : dims = ![0, 1]) :
    broadcastInDim ⟨3, ![a, b, 1]⟩ dims h x (ix3 p q u) = x (ix2 p q) := by
  subst hd
  refine broadcastInDim_apply _ h x (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- A vector of `n` entries placed on the last axis of `[1, 1, n]` and then broadcast to `[a, b, n]` reads, at
    `(p, q, i)`, entry `i`. -/
theorem broadcastInDim_row_apply {a b n : ℕ} (d1 : Fin 1 → Fin 3) (d2 : Fin 3 → Fin 3) (v : (⟨1, ![n]⟩ : Shape).Idx → α)
    (h1 : (⟨1, ![n]⟩ : Shape).BroadcastsInDim ⟨3, ![1, 1, n]⟩ d1)
    (h2 : (⟨3, ![1, 1, n]⟩ : Shape).BroadcastsInDim ⟨3, ![a, b, n]⟩ d2) (p : Fin a) (q : Fin b) (i : Fin n)
    (hd1 : d1 = ![2]) (hd2 : d2 = ![0, 1, 2]) :
    broadcastInDim ⟨3, ![a, b, n]⟩ d2 h2 (broadcastInDim ⟨3, ![1, 1, n]⟩ d1 h1 v) (ix3 p q i) = v (ix1 i) := by
  subst hd1 hd2
  refine (broadcastInDim_apply _ h2 _ (ix3 p q i) (ix3 (0 : Fin 1) (0 : Fin 1) i) fun ax => ?_).trans ?_
  · match ax with
    | ⟨0, _⟩ => rfl
    | ⟨1, _⟩ => rfl
    | ⟨2, _⟩ =>
      show i.val = if n = 1 then 0 else i.val
      split
      · have := i.isLt; omega
      · rfl
  · refine broadcastInDim_apply _ h1 v (ix3 (0 : Fin 1) (0 : Fin 1) i) (ix1 i) fun ax => ?_
    match ax with
    | ⟨0, _⟩ =>
      show i.val = if n = 1 then 0 else i.val
      split
      · have := i.isLt; omega
      · rfl

/-- A column stack `[a, b, 1]` broadcast along its last axis to `[a, b, n]` reads, at `(p, q, i)`, row `(p, q)`'s
    one entry. -/
theorem broadcastInDim_col_apply {a b n : ℕ} (dims : Fin 3 → Fin 3) (x : (⟨3, ![a, b, 1]⟩ : Shape).Idx → α)
    (h : (⟨3, ![a, b, 1]⟩ : Shape).BroadcastsInDim ⟨3, ![a, b, n]⟩ dims) (p : Fin a) (q : Fin b) (i : Fin n)
    (hd : dims = ![0, 1, 2]) :
    broadcastInDim ⟨3, ![a, b, n]⟩ dims h x (ix3 p q i) = x (ix3 p q (0 : Fin 1)) := by
  subst hd
  refine broadcastInDim_apply _ h x (ix3 p q i) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A scalar broadcast to any shape reads the scalar everywhere. -/
theorem broadcastInDim_scalar_apply {t : Shape} (dims : Fin 0 → Fin t.rank) (x : (⟨0, ![]⟩ : Shape).Idx → α)
    (h : (⟨0, ![]⟩ : Shape).BroadcastsInDim t dims) (j : t.Idx) :
    broadcastInDim t dims h x j = x ix0 :=
  broadcastInDim_apply _ h x j ix0 fun ax => ax.elim0

end Cert.Lib
-- ==== Proof.LibOuterStack.lean ====
/-
  A stack of all pairs of rows, read at an index given by coordinates.

  A value computed for every pair (row `p` of one matrix, row `q` of another) against the `n` entries of those rows
  lives in an `[a, b, n]` array.  Three operands meet there.  The first matrix, `[a, n]`, is cast to `[a, 1, n]` and
  repeated along the middle axis; the second, `[b, n]`, is cast to `[1, b, n]` and repeated along the first axis; a
  table of `n` entries, `[1, n]`, is cast to `[1, 1, n]` and repeated along both.  Read at `(p, q, k)` they are the first
  matrix at `(p, k)`, the second at `(q, k)` and the table at `k`.  A sum over the last axis of the stack, read at
  `(p, q)`, is the sum over `k` of the stack at `(p, q, k)`.  Beside them, a one-entry matrix `[1, 1]` repeated to
  `[a, b]` reads that entry everywhere.
-/
import Idealize.ShloMosaic.Lib.ValueLayout
import Idealize.ShloMosaic.PureOps.Ideal.Laws

namespace Cert.Lib

open Idealize.ShloMosaic Idealize.ShloMosaic.ValueIdx

variable {α : Type}

/-- An `[a, n]` matrix cast to `[a, 1, n]` reads, at `(p, u, k)`, the matrix at `(p, k)`. -/
theorem shapeCast_an_a1n_apply {a n : ℕ} (x : (⟨2, ![a, n]⟩ : Shape).Idx → α)
    (h : (⟨2, ![a, n]⟩ : Shape).ShapeCasts ⟨3, ![a, 1, n]⟩) (p : Fin a) (u : Fin 1) (k : Fin n) :
    shapeCast ⟨3, ![a, 1, n]⟩ x h (ix3 p u k) = x (ix2 p k) :=
  shapeCast_apply x h _ _ (by
    have hu : u.val = 0 := by omega
    rw [Shape.rowMajor_val_two, Shape.rowMajor_val_three]
    show p.val * n + k.val = (p.val * 1 + u.val) * n + k.val
    rw [hu, Nat.mul_one, Nat.add_zero])

/-- An `[a, 1, n]` array repeated along its middle axis to `[a, b, n]` reads, at `(p, q, k)`, the operand at `(p, 0, k)`. -/
theorem broadcastTo_a1n_abn_apply {a b n : ℕ} (x : (⟨3, ![a, 1, n]⟩ : Shape).Idx → α)
    (h : (⟨3, ![a, 1, n]⟩ : Shape).Broadcasts ⟨3, ![a, b, n]⟩) (p : Fin a) (q : Fin b) (k : Fin n) :
    broadcastTo ⟨3, ![a, b, n]⟩ x h (ix3 p q k) = x (ix3 p (0 : Fin 1) k) := by
  refine broadcastTo_apply x h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if n = 1 then 0 else k.val
    split
    · have := k.isLt; omega
    · rfl

/-- A `[1, b, n]` array repeated along its first axis to `[a, b, n]` reads, at `(p, q, k)`, the operand at `(0, q, k)`. -/
theorem broadcastTo_1bn_abn_apply {a b n : ℕ} (x : (⟨3, ![1, b, n]⟩ : Shape).Idx → α)
    (h : (⟨3, ![1, b, n]⟩ : Shape).Broadcasts ⟨3, ![a, b, n]⟩) (p : Fin a) (q : Fin b) (k : Fin n) :
    broadcastTo ⟨3, ![a, b, n]⟩ x h (ix3 p q k) = x (ix3 (0 : Fin 1) q k) := by
  refine broadcastTo_apply x h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if n = 1 then 0 else k.val
    split
    · have := k.isLt; omega
    · rfl

/-- A `[1, 1, n]` array repeated along its first two axes to `[a, b, n]` reads, at `(p, q, k)`, the operand at `(0, 0, k)`. -/
theorem broadcastTo_11n_abn_apply {a b n : ℕ} (x : (⟨3, ![1, 1, n]⟩ : Shape).Idx → α)
    (h : (⟨3, ![1, 1, n]⟩ : Shape).Broadcasts ⟨3, ![a, b, n]⟩) (p : Fin a) (q : Fin b) (k : Fin n) :
    broadcastTo ⟨3, ![a, b, n]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- A one-entry matrix repeated to `[a, b]` reads that entry everywhere. -/
theorem broadcastTo_11_ab_apply {a b : ℕ} (x : (⟨2, ![1, 1]⟩ : Shape).Idx → α)
    (h : (⟨2, ![1, 1]⟩ : Shape).Broadcasts ⟨2, ![a, b]⟩) (p : Fin a) (q : Fin b) :
    broadcastTo ⟨2, ![a, b]⟩ x h (ix2 p q) = x (ix2 (0 : Fin 1) (0 : Fin 1)) := by
  refine broadcastTo_apply x h (ix2 p q) (ix2 (0 : Fin 1) (0 : Fin 1)) fun ax => ?_
  match ax with
  | ⟨0, _⟩ => rfl
  | ⟨1, _⟩ => rfl

/-- Over the stack's last axis, the index above `(p, q)` with coordinate `k` inserted is `(p, q, k)`. -/
theorem lift_last_ix2 {a b n : ℕ} (h : (⟨3, ![a, b, n]⟩ : Shape).Reduces [2] ⟨2, ![a, b]⟩) (p : Fin a) (q : Fin b) (k : Fin n) :
    h.lift (ix2 p q) k = ix3 p q k := by
  funext c
  apply Fin.ext
  match c with
  | ⟨0, _⟩ => rfl
  | ⟨1, _⟩ => rfl
  | ⟨2, _⟩ => rfl

/-- At the ideal values, a sum over the last axis of an `[a, b, n]` stack, read at `(p, q)`, is the sum over `k` of the
    stack at `(p, q, k)`. -/
theorem laneSum_apply {a b n : ℕ} {φ : FTy} (src : FVec Ideal ⟨3, ![a, b, n]⟩ φ) (acc : BitVec φ.bits)
    (h : (⟨3, ![a, b, n]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin n, src (ix3 p q k) := by
  refine (Ideal.multiReduction_add_single src acc h hφ hacc (ix2 p q)).trans ?_
  exact Finset.sum_congr rfl fun k _ => congrArg src (lift_last_ix2 h p q k)

end Cert.Lib
-- ==== Proof.LibUnitAxes.lean ====
import Idealize.ShloMosaic.PureOps.Ideal.Laws
import Idealize.ShloMosaic.Lib.ValueIdx
import Idealize.ShloMosaic.Lib.ValueLayout

/-!
# Sums and casts along unit axes, read at an index

General lemmas, generic in the extents, about the layout steps a kernel takes around a reduction
that keeps or adds axes of extent one:

* a sum over the indices of an `[n]` vector, or of a `[1, n, 1]` stack, is the sum over `Fin n`;
* every index of a `[1]` vector, of a `[1, 1]` matrix and of a rank-zero array is the one index;
* an `[a]` vector recast as the column `[a, 1]` reads, at `(i, u)`, the vector at `i`;
* a one-element vector recast as `[1, 1, 1]` and read at its position `(0, 0, 0)` is its element;
* a `[1, 1]` matrix recast as a rank-zero array reads its one entry;
* on the extended reals, a `multi_reduction <add>` over the last axis of an `[a, n]` matrix read at
  row `r` is the sum over the row, and one over both inner axes of a `[1, n, 1]` stack is the sum over
  the stack's `n` entries.
-/

namespace Cert.Lib

open Idealize.ShloMosaic Idealize.ShloMosaic.ValueIdx

/-! ## Indices of shapes with unit axes -/

/-- The indices of an `[n]` vector are the elements of `Fin n`. -/
def idxEquiv1 {n : ℕ} : (⟨1, ![n]⟩ : Shape).Idx ≃ Fin n where
  toFun i := i 0
  invFun r := ix1 r
  left_inv i := (eq_ix1 i).symm
  right_inv _ := rfl

/-- A sum over the indices of an `[n]` vector is the sum over `Fin n`. -/
theorem sum_idx1 {M : Type*} [AddCommMonoid M] {n : ℕ} (f : (⟨1, ![n]⟩ : Shape).Idx → M) :
    ∑ i, f i = ∑ r : Fin n, f (ix1 r) := by
  rw [← Equiv.sum_comp (idxEquiv1 (n := n)).symm f]
  rfl

/-- An index of a `[1, n, 1]` stack is `(0, r, 0)` for its middle coordinate `r`. -/
theorem eq_ix3_unit {n : ℕ} (i : (⟨3, ![1, n, 1]⟩ : Shape).Idx) :
    i = ix3 (0 : Fin 1) (i 1) (0 : Fin 1) := by
  funext d
  match d with
  | ⟨0, _⟩ => exact Fin.ext (by have h : (i 0).val < 1 := (i 0).isLt; show (i 0).val = 0; omega)
  | ⟨1, _⟩ => rfl
  | ⟨2, _⟩ => exact Fin.ext (by have h : (i 2).val < 1 := (i 2).isLt; show (i 2).val = 0; omega)

/-- The indices of a `[1, n, 1]` stack are the elements of `Fin n`. -/
def idxEquiv1n1 {n : ℕ} : (⟨3, ![1, n, 1]⟩ : Shape).Idx ≃ Fin n where
  toFun i := i 1
  invFun r := ix3 (0 : Fin 1) r (0 : Fin 1)
  left_inv i := (eq_ix3_unit i).symm
  right_inv _ := rfl

/-- A sum over the indices of a `[1, n, 1]` stack is the sum over `Fin n`. -/
theorem sum_idx1n1 {M : Type*} [AddCommMonoid M] {n : ℕ} (f : (⟨3, ![1, n, 1]⟩ : Shape).Idx → M) :
    ∑ i, f i = ∑ r : Fin n, f (ix3 (0 : Fin 1) r (0 : Fin 1)) := by
  rw [← Equiv.sum_comp (idxEquiv1n1 (n := n)).symm f]
  rfl

/-- A `[1]` vector has one index. -/
theorem eq_ix1_zero (i : (⟨1, ![1]⟩ : Shape).Idx) : i = ix1 (0 : Fin 1) := by
  funext d
  match d with
  | ⟨0, _⟩ => exact Fin.ext (by have h : (i 0).val < 1 := (i 0).isLt; show (i 0).val = 0; omega)

/-- A `[1, 1]` matrix has one index. -/
theorem eq_ix2_zero (i : (⟨2, ![1, 1]⟩ : Shape).Idx) : i = ix2 (0 : Fin 1) (0 : Fin 1) := by
  funext d
  match d with
  | ⟨0, _⟩ => exact Fin.ext (by have h : (i 0).val < 1 := (i 0).isLt; show (i 0).val = 0; omega)
  | ⟨1, _⟩ => exact Fin.ext (by have h : (i 1).val < 1 := (i 1).isLt; show (i 1).val = 0; omega)

/-! ## Casts -/

variable {α : Type}

/-- An `[a]` vector recast as the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-element vector recast as `[1, 1, 1]` and read at its position `(0, 0, 0)` is its element. -/
theorem extract_shapeCast_1_111 (x : (⟨1, ![1]⟩ : Shape).Idx → α)
    (h : (⟨1, ![1]⟩ : Shape).ShapeCasts ⟨3, ![1, 1, 1]⟩)
    (hp : ∀ a, (![0, 0, 0] : Fin 3 → ℕ) a < (⟨3, ![1, 1, 1]⟩ : Shape).size a) :
    extractAt ![0, 0, 0] (shapeCast ⟨3, ![1, 1, 1]⟩ x h) hp = x (ix1 (0 : Fin 1)) := by
  unfold extractAt shapeCast
  exact congrArg x (eq_ix1_zero _)

/-- A `[1, 1]` matrix recast as a rank-zero array reads its one entry. -/
theorem shapeCast_11_scalar_apply (x : (⟨2, ![1, 1]⟩ : Shape).Idx → α)
    (h : (⟨2, ![1, 1]⟩ : Shape).ShapeCasts ⟨0, ![]⟩) (j : (⟨0, ![]⟩ : Shape).Idx) :
    shapeCast ⟨0, ![]⟩ x h j = x (ix2 (0 : Fin 1) (0 : Fin 1)) := by
  unfold shapeCast
  exact congrArg x (eq_ix2_zero _)

/-! ## Reductions on the extended reals -/

/-- A `multi_reduction <add>` over the last axis of an `[a, n]` matrix, read at row `r`, is the sum of
    the row's entries. -/
theorem rowSum_apply {φ : FTy} {a n : ℕ} (src : FVec Ideal ⟨2, ![a, n]⟩ φ) (acc : BitVec φ.bits)
    (h : (⟨2, ![a, n]⟩ : Shape).Reduces [1] ⟨1, ![a]⟩) (hφ : FKind.Formats φ)
    (hacc : acc = FKind.add.neutral φ hφ) (r : Fin a) :
    multiReduction .add [1] ⟨1, ![a]⟩ src acc h hφ hacc (ix1 r) = ∑ k : Fin n, src (ix2 r k) :=
  (Ideal.multiReduction_add_single src acc h hφ hacc (ix1 r)).trans
    (Finset.sum_congr rfl fun k _ => congrArg src (funext fun d => Fin.ext (by
      match d with | ⟨0, _⟩ => rfl | ⟨1, _⟩ => rfl)))

/-- A `multi_reduction <add>` over both inner axes of a `[1, n, 1]` stack is the sum of its `n`
    entries. -/
theorem stackSum_apply {φ : FTy} {n : ℕ} (src : FVec Ideal ⟨3, ![1, n, 1]⟩ φ) (acc : BitVec φ.bits)
    (h : (⟨3, ![1, n, 1]⟩ : Shape).Reduces [1, 2] ⟨1, ![1]⟩) (hφ : FKind.Formats φ)
    (hacc : acc = FKind.add.neutral φ hφ) (j : (⟨1, ![1]⟩ : Shape).Idx) :
    multiReduction .add [1, 2] ⟨1, ![1]⟩ src acc h hφ hacc j
      = ∑ r : Fin n, src (ix3 (0 : Fin 1) r (0 : Fin 1)) :=
  (Ideal.multiReduction_add_total src acc h (fun b => by match b with | ⟨0, _⟩ => rfl) hφ hacc j).trans
    (sum_idx1n1 src)

end Cert.Lib
-- ==== Proof.KernelPayloads.lean ====
/-
  The kernel's arithmetic read at an index, at the ideal values.

  A tile's update of an accumulator, at cell (p, k1, k0): what the accumulator held there plus, over the tile's
  128 columns n, the product of three numbers — 1 or 0 as the entry's bin word has high part k1, the entry's
  intensity, 1 or 0 as the bin word has low part k0. A bin word lies in 0 … 1999, so the two indicators hold
  together exactly when the bin word is 128·k1 + k0; and 0 times anything is 0 on the extended reals. So the update
  adds the tile's intensities at the entries whose bin word is 128·k1 + k0.

  The row block's cosines from two finished accumulators, at row p: the double sums over (k1, k0) are the sums over
  the 2048 cells of the specification's cosine.
-/
import proofs.«120698_j83373905149952_2_alg».proof.Proof.KernelPieces
import proofs.«120698_j83373905149952_2_alg».proof.Proof.Spec
import proofs.«120698_j83373905149952_2_alg».proof.Proof.LibStackCols
import proofs.«120698_j83373905149952_2_alg».proof.Proof.LibLaneReads
import proofs.«120698_j83373905149952_2_alg».proof.Proof.LibOuterStack
import proofs.«120698_j83373905149952_2_alg».proof.Proof.LibUnitAxes
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx

namespace Cert.KernelIdeal.Payloads

open Cert.KernelIdeal Cert.KernelIdeal.Gen Cert.KernelIdeal.Pieces Cert.Hist

/-- Three numbers' product: the indicator of the high part, a value, the indicator of the low part — the value
    where the word is 128·k1 + k0, else 0. -/
theorem cell_term (b : BitVec 32) (hb : b.toNat ≤ 1999) (k1 k0 : Nat) (h1 : k1 < 16) (h0 : k0 < 128) (v : EReal) :
    ((if IntOp.shrsi .vector b 7#32 = BitVec.ofNat 32 k1 then (1 : EReal) else 0) * v)
        * (if IntOp.andi b 127#32 = BitVec.ofNat 32 k0 then (1 : EReal) else 0)
      = if b = BitVec.ofNat 32 (128 * k1 + k0) then v else 0 := by
  have hs := split_word b hb k1 k0 h1 h0
  by_cases e1 : IntOp.shrsi .vector b 7#32 = BitVec.ofNat 32 k1
  · by_cases e0 : IntOp.andi b 127#32 = BitVec.ofNat 32 k0
    · rw [if_pos e1, if_pos e0, if_pos (hs.mp ⟨e1, e0⟩), one_mul, mul_one]
    · rw [if_pos e1, if_neg e0, if_neg (fun h => e0 (hs.mpr h).2), mul_zero]
  · rw [if_neg e1, if_neg (fun h => e1 (hs.mpr h).1), zero_mul, zero_mul]

/-- The clipped bin words of a tile of m/z values, entry by entry. -/
theorem pay9_apply (x : Vec Ideal S32x128 .f32) (j : S32x128.Idx) : k0_pay9 (F := Ideal) x j = binW (x j) := rfl
theorem pay10_apply (x : Vec Ideal S32x128 .f32) (j : S32x128.Idx) : k0_pay10 (F := Ideal) x j = binW (x j) := rfl

theorem iota16_apply (p : Fin 32) (n : Fin 128) (k : Fin 16) :
    iota .tc S32x128x16 32 [2] iota_S32x128x16_d2_w32 (ix3 p n k) = BitVec.ofNat 32 k.val := by
  show BitVec.ofNat 32 (0 * 16 + k.val) = _
  rw [Nat.zero_mul, Nat.zero_add]

theorem iota128_apply (p : Fin 32) (n : Fin 128) (k : Fin 128) :
    iota .tc S32x128x128 32 [2] iota_S32x128x128_d2_w32 (ix3 p n k) = BitVec.ofNat 32 k.val := by
  show BitVec.ofNat 32 (0 * 128 + k.val) = _
  rw [Nat.zero_mul, Nat.zero_add]

/-- A [32,128] tile given a trailing unit axis and repeated along it reads the tile's entry. -/
theorem lane16 {α : Type} (x : S32x128.Idx → α) (p : Fin 32) (n : Fin 128) (k : Fin 16) :
    broadcastTo S32x128x16 (shapeCast S32x128x1 x shapeCasts_S32x128_S32x128x1) broadcasts_S32x128x1_S32x128x16 (ix3 p n k)
      = x (ix2 p n) := by
  rw [Cert.Lib.broadcastTo_col_apply, Cert.Lib.shapeCast_ab_ab1_apply]

theorem lane128 {α : Type} (x : S32x128.Idx → α) (p : Fin 32) (n : Fin 128) (k : Fin 128) :
    broadcastTo S32x128x128 (shapeCast S32x128x1 x shapeCasts_S32x128_S32x128x1) broadcasts_S32x128x1_S32x128x128 (ix3 p n k)
      = x (ix2 p n) := by
  rw [Cert.Lib.broadcastTo_col_apply, Cert.Lib.shapeCast_ab_ab1_apply]

/-- The predicted accumulator's update at a cell. -/
theorem accP_apply (x0 x1 : Vec Ideal S32x128 .f32) (acc : Vec Ideal S32x16x128 .f32) (p : Fin 32) (k1 : Fin 16)
    (k0 : Fin 128) :
    accP (F := Ideal) x0 x1 acc (ix3 p k1 k0)
      = acc (ix3 p k1 k0) + ∑ n : Fin 128,
          (if binW (x0 (ix2 p n)) = BitVec.ofNat 32 (128 * k1.val + k0.val) then x1 (ix2 p n) else 0) := by
  unfold accP k0_pay16
  dsimp only
  rw [shapeCast_self]
  refine (congrArg (acc (ix3 p k1 k0) + ·)
    (Cert.Lib.stackCols_matmul_zero_apply dot_S32x128x16_S32x128x128_S32x16x128_1_1_2_2_0_0_wf none _ _ p k1 k0)).trans ?_
  congr 1
  refine Finset.sum_congr rfl fun n _ => ?_
  refine Eq.trans ?_ (cell_term (binW (x0 (ix2 p n))) (binW_le _) k1.val k0.val k1.isLt k0.isLt (x1 (ix2 p n)))
  have eL : (k0_pay15 (F := Ideal) x0) (ix3 p n k1) = IntOp.shrsi .vector (binW (x0 (ix2 p n))) 7#32 := by
    unfold k0_pay15; rw [lane16]; rfl
  have eR : broadcastTo S32x128x128 (shapeCast S32x128x1 (k0_pay11 (F := Ideal) x0) shapeCasts_S32x128_S32x128x1)
      broadcasts_S32x128x1_S32x128x128 (ix3 p n k0) = IntOp.andi (binW (x0 (ix2 p n))) 127#32 := by
    rw [lane128]; rfl
  have eV : (broadcastTo S32x128x16 (truncf (F := Ideal) .bf16 (shapeCast S32x128x1 x1 shapeCasts_S32x128_S32x128x1) bitsLt_bf16_f32)
      broadcasts_S32x128x1_S32x128x16 (ix3 p n k1) : EReal) = x1 (ix2 p n) := by
    rw [Cert.Lib.broadcastTo_col_apply]
    exact Cert.Lib.shapeCast_ab_ab1_apply x1 _ p n 0
  rw [← onehot, ← onehot, ← eL, ← eR, ← eV, ← iota16_apply p n k1, ← iota128_apply p n k0]
  rfl

/-- The target accumulator's update at a cell (the intensity is intensity times mask). -/
theorem accT_apply (x2 x3 x4 : Vec Ideal S32x128 .f32) (acc : Vec Ideal S32x16x128 .f32) (p : Fin 32) (k1 : Fin 16)
    (k0 : Fin 128) :
    accT (F := Ideal) x2 x3 x4 acc (ix3 p k1 k0)
      = acc (ix3 p k1 k0) + ∑ n : Fin 128,
          (if binW (x2 (ix2 p n)) = BitVec.ofNat 32 (128 * k1.val + k0.val) then x3 (ix2 p n) * x4 (ix2 p n) else 0) := by
  unfold accT k0_pay17
  dsimp only
  rw [shapeCast_self]
  refine (congrArg (acc (ix3 p k1 k0) + ·)
    (Cert.Lib.stackCols_matmul_zero_apply dot_S32x128x16_S32x128x128_S32x16x128_1_1_2_2_0_0_wf none _ _ p k1 k0)).trans ?_
  congr 1
  refine Finset.sum_congr rfl fun n _ => ?_
  refine Eq.trans ?_ (cell_term (binW (x2 (ix2 p n))) (binW_le _) k1.val k0.val k1.isLt k0.isLt
    (x3 (ix2 p n) * x4 (ix2 p n)))
  have eL : broadcastTo S32x128x16 (shapeCast S32x128x1 (k0_pay12 (F := Ideal) x2) shapeCasts_S32x128_S32x128x1)
      broadcasts_S32x128x1_S32x128x16 (ix3 p n k1) = IntOp.shrsi .vector (binW (x2 (ix2 p n))) 7#32 := by
    rw [lane16]; rfl
  have eR : broadcastTo S32x128x128 (shapeCast S32x128x1 (k0_pay13 (F := Ideal) x2) shapeCasts_S32x128_S32x128x1)
      broadcasts_S32x128x1_S32x128x128 (ix3 p n k0) = IntOp.andi (binW (x2 (ix2 p n))) 127#32 := by
    rw [lane128]; rfl
  have eV : (broadcastTo S32x128x16 (truncf (F := Ideal) .bf16 (shapeCast S32x128x1 (k0_pay14 (F := Ideal) x3 x4) shapeCasts_S32x128_S32x128x1) bitsLt_bf16_f32)
      broadcasts_S32x128x1_S32x128x16 (ix3 p n k1) : EReal) = x3 (ix2 p n) * x4 (ix2 p n) := by
    rw [Cert.Lib.broadcastTo_col_apply]
    exact Cert.Lib.shapeCast_ab_ab1_apply (k0_pay14 (F := Ideal) x3 x4) _ p n 0
  rw [← onehot, ← onehot, ← eL, ← eR, ← eV, ← iota16_apply p n k1, ← iota128_apply p n k0]
  rfl

/-- The zero blocks the first tile stores. -/
theorem pay7_apply (j : S32x16x128.Idx) : k0_pay7 (F := Ideal) j = 0 := by
  unfold k0_pay7; rw [shapeCast_self]; exact Ideal.ofBits_zero_f32
theorem pay8_apply (j : S32x16x128.Idx) : k0_pay8 (F := Ideal) j = 0 := by
  unfold k0_pay8; rw [shapeCast_self]; exact Ideal.ofBits_zero_f32

/-! ## The cosines of a row block -/

/-- Summing a [32,16,128] stack over its last axis, then over its middle axis, kept as a column: at row p the
    double sum over the cells. -/
theorem sum2_apply (X : FVec Ideal S32x16x128 .f32) (p : Fin 32) (u : Fin 1) :
    shapeCast S32x1 (multiReduction .add [1] S32 (multiReduction .add [2] S32x16 X 0x00000000#32
        reduces_S32x16x128_S32x16 (.inl rfl) rfl) 0x00000000#32 reduces_S32x16_S32 (.inl rfl) rfl)
      shapeCasts_S32_S32x1 (ix2 p u)
      = ∑ k1 : Fin 16, ∑ k0 : Fin 128, X (ix3 p k1 k0) := by
  refine (Cert.Lib.shapeCast_a_a1_apply _ _ p u).trans ?_
  refine (Cert.Lib.rowSum_apply _ _ _ _ _ p).trans ?_
  exact Finset.sum_congr rfl fun k1 _ => Cert.Lib.laneSum_apply _ _ _ _ _ p k1

/-- An accumulator divided by its rows' norms plus ε, at a cell. -/
theorem pay2_apply (s : Vec Ideal S32x16x128 .f32) (p : Fin 32) (k1 : Fin 16) (k0 : Fin 128) :
    k0_pay2 (F := Ideal) s (ix3 p k1 k0)
      = Ideal.div (s (ix3 p k1 k0))
          (Ideal.sqrt (∑ a : Fin 16, ∑ b : Fin 128, s (ix3 p a b) * s (ix3 p a b)) + eps) := by
  unfold k0_pay2
  dsimp only
  show Ideal.div (s (ix3 p k1 k0)) (broadcastTo S32x16x128 _ broadcasts_S32x1x1_S32x16x128 (ix3 p k1 k0)) = _
  rw [Cert.Lib.broadcastTo_a11_abn_apply]
  show Ideal.div _ (shapeCast S32x1x1 _ shapeCasts_S32x1_S32x1x1 (ix3 p (0 : Fin 1) (0 : Fin 1)) + eps) = _
  rw [Cert.Lib.shapeCast_ab_ab1_apply]
  show Ideal.div _ (Ideal.sqrt (shapeCast S32x1 _ shapeCasts_S32_S32x1 (ix2 p (0 : Fin 1))) + eps) = _
  rw [sum2_apply]
  rfl

theorem pay3_apply (s : Vec Ideal S32x16x128 .f32) (p : Fin 32) (k1 : Fin 16) (k0 : Fin 128) :
    k0_pay3 (F := Ideal) s (ix3 p k1 k0)
      = Ideal.div (s (ix3 p k1 k0))
          (Ideal.sqrt (∑ a : Fin 16, ∑ b : Fin 128, s (ix3 p a b) * s (ix3 p a b)) + eps) := by
  unfold k0_pay3
  dsimp only
  show Ideal.div (s (ix3 p k1 k0)) (broadcastTo S32x16x128 _ broadcasts_S32x1x1_S32x16x128 (ix3 p k1 k0)) = _
  rw [Cert.Lib.broadcastTo_a11_abn_apply]
  show Ideal.div _ (shapeCast S32x1x1 _ shapeCasts_S32x1_S32x1x1 (ix3 p (0 : Fin 1) (0 : Fin 1)) + eps) = _
  rw [Cert.Lib.shapeCast_ab_ab1_apply]
  show Ideal.div _ (Ideal.sqrt (shapeCast S32x1 _ shapeCasts_S32_S32x1 (ix2 p (0 : Fin 1))) + eps) = _
  rw [sum2_apply]
  rfl

/-- The double sum of the products of two stacks, kept as a column, at row p. -/
theorem dot2_apply (X Y : FVec Ideal S32x16x128 .f32) (p : Fin 32) (u : Fin 1) :
    shapeCast S32x1 (multiReduction .add [1] S32 (multiReduction .add [2] S32x16 (mulf X Y) 0x00000000#32
        reduces_S32x16x128_S32x16 (.inl rfl) rfl) 0x00000000#32 reduces_S32x16_S32 (.inl rfl) rfl)
      shapeCasts_S32_S32x1 (ix2 p u)
      = ∑ k1 : Fin 16, ∑ k0 : Fin 128, X (ix3 p k1 k0) * Y (ix3 p k1 k0) :=
  sum2_apply (mulf X Y) p u

/-- The larger of a stack's row norm and ε, at row p. -/
theorem norm2_apply (X : FVec Ideal S32x16x128 .f32) (p : Fin 32) (u : Fin 1) :
    maximumf (sqrt (shapeCast S32x1 (multiReduction .add [1] S32 (multiReduction .add [2] S32x16 (mulf X X)
        0x00000000#32 reduces_S32x16x128_S32x16 (.inl rfl) rfl) 0x00000000#32 reduces_S32x16_S32 (.inl rfl) rfl)
      shapeCasts_S32_S32x1)) (broadcast S32x1 (Scalar.ofBits .f32 0x322BCC77#32)) (ix2 p u)
      = max (Ideal.sqrt (∑ k1 : Fin 16, ∑ k0 : Fin 128, X (ix3 p k1 k0) * X (ix3 p k1 k0))) eps := by
  show max (Ideal.sqrt (shapeCast S32x1 _ shapeCasts_S32_S32x1 (ix2 p u))) eps = _
  rw [dot2_apply]

/-- The quotient of a column by the product of two columns, entry by entry. -/
theorem pay1_apply (a b c : FVec Ideal S32x1 .f32) (j : S32x1.Idx) :
    k0_pay1 (F := Ideal) a b c j = Ideal.div (a j) (b j * c j) := rfl

/-- The row block's cosines at row p: the specification's cosine, summed over the 2048 cells, of the two rows of
    cells read as histograms by bin number. -/
theorem cosBlock_apply (s0 s1 : Vec Ideal S32x16x128 .f32) (p : Fin 32) (u : Fin 1) (P T : ℕ → EReal)
    (hP : ∀ (k1 : Fin 16) (k0 : Fin 128), s0 (ix3 p k1 k0) = P (128 * k1.val + k0.val))
    (hT : ∀ (k1 : Fin 16) (k0 : Fin 128), s1 (ix3 p k1 k0) = T (128 * k1.val + k0.val)) :
    cosBlock (F := Ideal) s0 s1 (ix2 p u) = cosOf sumK P T := by
  have e2 : ∀ (k1 : Fin 16) (k0 : Fin 128), k0_pay2 (F := Ideal) s0 (ix3 p k1 k0) = unitOf sumK P (128 * k1.val + k0.val) := by
    intro k1 k0
    rw [pay2_apply]
    simp only [hP]
    rfl
  have e3 : ∀ (k1 : Fin 16) (k0 : Fin 128), k0_pay3 (F := Ideal) s1 (ix3 p k1 k0) = unitOf sumK T (128 * k1.val + k0.val) := by
    intro k1 k0
    rw [pay3_apply]
    simp only [hT]
    rfl
  have e4 : k0_pay4 (F := Ideal) s0 s1 (ix2 p u) = sumK fun k => unitOf sumK P k * unitOf sumK T k := by
    refine Eq.trans (show k0_pay4 (F := Ideal) s0 s1 (ix2 p u) = _ from dot2_apply (k0_pay2 s0) (k0_pay3 s1) p u) ?_
    show _ = ∑ k1 : Fin 16, ∑ k0 : Fin 128,
      unitOf sumK P (128 * k1.val + k0.val) * unitOf sumK T (128 * k1.val + k0.val)
    exact Finset.sum_congr rfl fun k1 _ => Finset.sum_congr rfl fun k0 _ => by rw [e2, e3]
  have e5 : k0_pay5 (F := Ideal) s0 (ix2 p u) = max (normOf sumK (unitOf sumK P)) eps := by
    refine Eq.trans (show k0_pay5 (F := Ideal) s0 (ix2 p u) = _ from norm2_apply (k0_pay2 s0) p u) ?_
    show _ = max (Ideal.sqrt (∑ k1 : Fin 16, ∑ k0 : Fin 128,
      unitOf sumK P (128 * k1.val + k0.val) * unitOf sumK P (128 * k1.val + k0.val))) eps
    congr 2
    exact Finset.sum_congr rfl fun k1 _ => Finset.sum_congr rfl fun k0 _ => by rw [e2]
  have e6 : k0_pay6 (F := Ideal) s1 (ix2 p u) = max (normOf sumK (unitOf sumK T)) eps := by
    refine Eq.trans (show k0_pay6 (F := Ideal) s1 (ix2 p u) = _ from norm2_apply (k0_pay3 s1) p u) ?_
    show _ = max (Ideal.sqrt (∑ k1 : Fin 16, ∑ k0 : Fin 128,
      unitOf sumK T (128 * k1.val + k0.val) * unitOf sumK T (128 * k1.val + k0.val))) eps
    congr 2
    exact Finset.sum_congr rfl fun k1 _ => Finset.sum_congr rfl fun k0 _ => by rw [e3]
  unfold cosBlock
  refine (pay1_apply _ _ _ _).trans ?_
  rw [e4, e5, e6]
  rfl

end Cert.KernelIdeal.Payloads

end
-- ==== Proof.KernelAccum.lean ====
/-
  What the kernel's run leaves in its result array: the rows' cosines.

  The grid point t = 32·i + j works on rows 32·i … 32·i + 31 and columns 128·j … 128·j + 127. After point t the two
  accumulators hold, at cell (p, k1, k0), the histogram at the bin word 128·k1 + k0 of the first 128·(j + 1)
  entries of row 32·i + p (of the predicted spectrum, and of the target spectrum with intensity times mask): at
  j = 0 the accumulators were just zeroed, and each later tile adds its 128 entries to what the tile before left —
  an induction over the grid points. At j = 31 all 4096 entries are in, the accumulators are the rows' histograms,
  and the output block written back there holds the cosines of rows 32·i … 32·i + 31. The blocks written back at
  the points 32·i + 31 cover the result array.
-/
import proofs.«120698_j83373905149952_2_alg».proof.Proof.KernelPayloads
import proofs.«120698_j83373905149952_2_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Pieces Cert.KernelIdeal.Payloads Cert.Hist

variable (m : (ℓ : Loc nD τ sig) → Buf (Elt Ideal) ℓ)

/-- Entry (r, col) of a [2048, 4096] array by natural numbers, 0 outside it. -/
def at2 (A : S2048x4096.Idx → EReal) (r col : ℕ) : EReal :=
  if h : r < 2048 ∧ col < 4096 then A (ix2 ⟨r, h.1⟩ ⟨col, h.2⟩) else 0

theorem at2_fin (A : S2048x4096.Idx → EReal) (r : Fin 2048) (col : Fin 4096) : at2 A r.val col.val = A (ix2 r col) := by
  unfold at2; rw [dif_pos ⟨r.isLt, col.isLt⟩]

/-- The printed index maps over the grid: point t's blocks are block row t / 32 and block column t % 32 of the
    inputs, and block row t / 32 of the result. -/
theorem idx_facts : ∀ t : Fin cfg0.N,
    win0_0.index t (0 : Fin 2) = t.val / 32 ∧ win0_0.index t (1 : Fin 2) = t.val % 32
    ∧ win0_1.index t (0 : Fin 2) = t.val / 32 ∧ win0_1.index t (1 : Fin 2) = t.val % 32
    ∧ win0_2.index t (0 : Fin 2) = t.val / 32 ∧ win0_2.index t (1 : Fin 2) = t.val % 32
    ∧ win0_3.index t (0 : Fin 2) = t.val / 32 ∧ win0_3.index t (1 : Fin 2) = t.val % 32
    ∧ win0_4.index t (0 : Fin 2) = t.val / 32 ∧ win0_4.index t (1 : Fin 2) = t.val % 32
    ∧ win0_5.index t (0 : Fin 2) = t.val / 32 ∧ win0_5.index t (1 : Fin 2) = 0 :=
  (by decide +kernel : ∀ t : Fin grid0.N, _)

/-! ## The input blocks, entry by entry -/

theorem blk0 (c : Dev nD) (t : Fin cfg0.N) (p : Fin 32) (n : Fin 128) :
    (iblk m c 0 t : Vec Ideal S32x128 .f32) (ix2 p n)
      = at2 (V m c main_arg0) (32 * (t.val / 32) + p.val) (128 * (t.val % 32) + n.val) := by
  have e0 : win0_0.index t (0 : Fin 2) = t.val / 32 := (idx_facts t).1
  have e1 : win0_0.index t (1 : Fin 2) = t.val % 32 := (idx_facts t).2.1
  have hN : t.val < 2048 := lt_of_lt_of_eq t.isLt (show cfg0.N = 2048 from N_0)
  have hp := p.isLt
  have hn := n.isLt
  have hr : 32 * (t.val / 32) + p.val < 2048 ∧ 128 * (t.val % 32) + n.val < 4096 := by omega
  unfold at2
  rw [dif_pos hr]
  show V m c main_arg0 (((cfg0.win 0).blk t).view.emb (ix2 p n)) = V m c main_arg0 _
  congr 1
  funext a; apply Fin.ext
  match a with
  | ⟨0, _⟩ => show win0_0.index t (0 : Fin 2) * 32 + 1 * p.val = 32 * (t.val / 32) + p.val; rw [e0]; omega
  | ⟨1, _⟩ => show win0_0.index t (1 : Fin 2) * 128 + 1 * n.val = 128 * (t.val % 32) + n.val; rw [e1]; omega

theorem blk1 (c : Dev nD) (t : Fin cfg0.N) (p : Fin 32) (n : Fin 128) :
    (iblk m c 1 t : Vec Ideal S32x128 .f32) (ix2 p n)
      = at2 (V m c main_arg1) (32 * (t.val / 32) + p.val) (128 * (t.val % 32) + n.val) := by
  have e0 : win0_1.index t (0 : Fin 2) = t.val / 32 := (idx_facts t).2.2.1
  have e1 : win0_1.index t (1 : Fin 2) = t.val % 32 := (idx_facts t).2.2.2.1
  have hN : t.val < 2048 := lt_of_lt_of_eq t.isLt (show cfg0.N = 2048 from N_0)
  have hp := p.isLt
  have hn := n.isLt
  have hr : 32 * (t.val / 32) + p.val < 2048 ∧ 128 * (t.val % 32) + n.val < 4096 := by omega
  unfold at2
  rw [dif_pos hr]
  show V m c main_arg1 (((cfg0.win 1).blk t).view.emb (ix2 p n)) = V m c main_arg1 _
  congr 1
  funext a; apply Fin.ext
  match a with
  | ⟨0, _⟩ => show win0_1.index t (0 : Fin 2) * 32 + 1 * p.val = 32 * (t.val / 32) + p.val; rw [e0]; omega
  | ⟨1, _⟩ => show win0_1.index t (1 : Fin 2) * 128 + 1 * n.val = 128 * (t.val % 32) + n.val; rw [e1]; omega

theorem blk2 (c : Dev nD) (t : Fin cfg0.N) (p : Fin 32) (n : Fin 128) :
    (iblk m c 2 t : Vec Ideal S32x128 .f32) (ix2 p n)
      = at2 (V m c main_arg2) (32 * (t.val / 32) + p.val) (128 * (t.val % 32) + n.val) := by
  have e0 : win0_2.index t (0 : Fin 2) = t.val / 32 := (idx_facts t).2.2.2.2.1
  have e1 : win0_2.index t (1 : Fin 2) = t.val % 32 := (idx_facts t).2.2.2.2.2.1
  have hN : t.val < 2048 := lt_of_lt_of_eq t.isLt (show cfg0.N = 2048 from N_0)
  have hp := p.isLt
  have hn := n.isLt
  have hr : 32 * (t.val / 32) + p.val < 2048 ∧ 128 * (t.val % 32) + n.val < 4096 := by omega
  unfold at2
  rw [dif_pos hr]
  show V m c main_arg2 (((cfg0.win 2).blk t).view.emb (ix2 p n)) = V m c main_arg2 _
  congr 1
  funext a; apply Fin.ext
  match a with
  | ⟨0, _⟩ => show win0_2.index t (0 : Fin 2) * 32 + 1 * p.val = 32 * (t.val / 32) + p.val; rw [e0]; omega
  | ⟨1, _⟩ => show win0_2.index t (1 : Fin 2) * 128 + 1 * n.val = 128 * (t.val % 32) + n.val; rw [e1]; omega

theorem blk3 (c : Dev nD) (t : Fin cfg0.N) (p : Fin 32) (n : Fin 128) :
    (iblk m c 3 t : Vec Ideal S32x128 .f32) (ix2 p n)
      = at2 (V m c main_arg3) (32 * (t.val / 32) + p.val) (128 * (t.val % 32) + n.val) := by
  have e0 : win0_3.index t (0 : Fin 2) = t.val / 32 := (idx_facts t).2.2.2.2.2.2.1
  have e1 : win0_3.index t (1 : Fin 2) = t.val % 32 := (idx_facts t).2.2.2.2.2.2.2.1
  have hN : t.val < 2048 := lt_of_lt_of_eq t.isLt (show cfg0.N = 2048 from N_0)
  have hp := p.isLt
  have hn := n.isLt
  have hr : 32 * (t.val / 32) + p.val < 2048 ∧ 128 * (t.val % 32) + n.val < 4096 := by omega
  unfold at2
  rw [dif_pos hr]
  show V m c main_arg3 (((cfg0.win 3).blk t).view.emb (ix2 p n)) = V m c main_arg3 _
  congr 1
  funext a; apply Fin.ext
  match a with
  | ⟨0, _⟩ => show win0_3.index t (0 : Fin 2) * 32 + 1 * p.val = 32 * (t.val / 32) + p.val; rw [e0]; omega
  | ⟨1, _⟩ => show win0_3.index t (1 : Fin 2) * 128 + 1 * n.val = 128 * (t.val % 32) + n.val; rw [e1]; omega

theorem blk4 (c : Dev nD) (t : Fin cfg0.N) (p : Fin 32) (n : Fin 128) :
    (iblk m c 4 t : Vec Ideal S32x128 .f32) (ix2 p n)
      = at2 (V m c main_arg4) (32 * (t.val / 32) + p.val) (128 * (t.val % 32) + n.val) := by
  have e0 : win0_4.index t (0 : Fin 2) = t.val / 32 := (idx_facts t).2.2.2.2.2.2.2.2.1
  have e1 : win0_4.index t (1 : Fin 2) = t.val % 32 := (idx_facts t).2.2.2.2.2.2.2.2.2.1
  have hN : t.val < 2048 := lt_of_lt_of_eq t.isLt (show cfg0.N = 2048 from N_0)
  have hp := p.isLt
  have hn := n.isLt
  have hr : 32 * (t.val / 32) + p.val < 2048 ∧ 128 * (t.val % 32) + n.val < 4096 := by omega
  unfold at2
  rw [dif_pos hr]
  show V m c main_arg4 (((cfg0.win 4).blk t).view.emb (ix2 p n)) = V m c main_arg4 _
  congr 1
  funext a; apply Fin.ext
  match a with
  | ⟨0, _⟩ => show win0_4.index t (0 : Fin 2) * 32 + 1 * p.val = 32 * (t.val / 32) + p.val; rw [e0]; omega
  | ⟨1, _⟩ => show win0_4.index t (1 : Fin 2) * 128 + 1 * n.val = 128 * (t.val % 32) + n.val; rw [e1]; omega

/-! ## The accumulators, tile by tile -/

/-- The accumulator S holds, for row block i, the histograms of the first J entries of the rows given by MZ and VAL. -/
def Holds (MZ VAL : ℕ → ℕ → EReal) (S : Vec Ideal S32x16x128 .f32) (i J : ℕ) : Prop :=
  ∀ (p : Fin 32) (k1 : Fin 16) (k0 : Fin 128),
    S (ix3 p k1 k0)
      = histUpTo (MZ (32 * i + p.val)) (VAL (32 * i + p.val)) (BitVec.ofNat 32 (128 * k1.val + k0.val)) J

theorem holds_zero7 (MZ VAL : ℕ → ℕ → EReal) (i : ℕ) : Holds MZ VAL (k0_pay7 (F := Ideal)) i 0 :=
  fun p k1 k0 => by rw [pay7_apply, histUpTo_zero]
theorem holds_zero8 (MZ VAL : ℕ → ℕ → EReal) (i : ℕ) : Holds MZ VAL (k0_pay8 (F := Ideal)) i 0 :=
  fun p k1 k0 => by rw [pay8_apply, histUpTo_zero]

/-- One more tile of the predicted spectrum. -/
theorem holds_stepP (MZ VAL : ℕ → ℕ → EReal) (x0 x1 : Vec Ideal S32x128 .f32) (acc : Vec Ideal S32x16x128 .f32)
    (i j : ℕ) (hacc : Holds MZ VAL acc i (128 * j))
    (h0 : ∀ (p : Fin 32) (n : Fin 128), x0 (ix2 p n) = MZ (32 * i + p.val) (128 * j + n.val))
    (h1 : ∀ (p : Fin 32) (n : Fin 128), x1 (ix2 p n) = VAL (32 * i + p.val) (128 * j + n.val)) :
    Holds MZ VAL (accP x0 x1 acc) i (128 * (j + 1)) := fun p k1 k0 => by
  rw [accP_apply, hacc p k1 k0, show 128 * (j + 1) = 128 * j + 128 from rfl, histUpTo_add]
  congr 1
  exact Finset.sum_congr rfl fun n _ => by unfold colTerm; rw [h0, h1]

/-- One more tile of the target spectrum (the intensity is the product of two arrays' entries). -/
theorem holds_stepT (MZ V3 V4 : ℕ → ℕ → EReal) (x2 x3 x4 : Vec Ideal S32x128 .f32) (acc : Vec Ideal S32x16x128 .f32)
    (i j : ℕ) (hacc : Holds MZ (fun r col => V3 r col * V4 r col) acc i (128 * j))
    (h0 : ∀ (p : Fin 32) (n : Fin 128), x2 (ix2 p n) = MZ (32 * i + p.val) (128 * j + n.val))
    (h3 : ∀ (p : Fin 32) (n : Fin 128), x3 (ix2 p n) = V3 (32 * i + p.val) (128 * j + n.val))
    (h4 : ∀ (p : Fin 32) (n : Fin 128), x4 (ix2 p n) = V4 (32 * i + p.val) (128 * j + n.val)) :
    Holds MZ (fun r col => V3 r col * V4 r col) (accT x2 x3 x4 acc) i (128 * (j + 1)) := fun p k1 k0 => by
  rw [accT_apply, hacc p k1 k0, show 128 * (j + 1) = 128 * j + 128 from rfl, histUpTo_add]
  congr 1
  exact Finset.sum_congr rfl fun n _ => by unfold colTerm; rw [h0, h3, h4]

/-- The same accumulator under another name holds the same. -/
theorem holds_congr {MZ VAL : ℕ → ℕ → EReal} {S S' : Vec Ideal S32x16x128 .f32} {i J : ℕ} (h : S = S')
    (hs : Holds MZ VAL S' i J) : Holds MZ VAL S i J := fun p k1 k0 => (congrFun h _).trans (hs p k1 k0)

/-- The rows of the two spectra as the region finds the arrays. -/
def mzP (c : Dev nD) : ℕ → ℕ → EReal := at2 (V m c main_arg0)
def valP (c : Dev nD) : ℕ → ℕ → EReal := at2 (V m c main_arg1)
def mzT (c : Dev nD) : ℕ → ℕ → EReal := at2 (V m c main_arg2)
def valT (c : Dev nD) : ℕ → ℕ → EReal := fun r col => at2 (V m c main_arg3) r col * at2 (V m c main_arg4) r col

/-! ## What each kind of point leaves, in the values above -/

set_option maxHeartbeats 2000000 in
theorem outs_A (c : Dev nD) (t : Fin cfg0.N) (h0 : t.val % 32 = 0) (h1 : ¬t.val % 32 = 31) :
    (outsAt0 m c t.val t.isLt).2
      = (accP (iblk m c 0 t) (iblk m c 1 t) (k0_pay7 (F := Ideal)),
         accT (iblk m c 2 t) (iblk m c 3 t) (iblk m c 4 t) (k0_pay8 (F := Ideal))) :=
  (congrArg Prod.snd (outsAt0_A m c t h0 h1)).trans (Prod.ext
    (sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0) (fun h => h1 ((hcond0_1 t).mp h)))
    (sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0) (fun h => h1 ((hcond0_1 t).mp h))))

set_option maxHeartbeats 2000000 in
theorem outs_B (c : Dev nD) (t : Fin cfg0.N) (h0 : ¬t.val % 32 = 0) (h1 : ¬t.val % 32 = 31) :
    (outsAt0 m c t.val t.isLt).2
      = (accP (iblk m c 0 t) (iblk m c 1 t) (outsAt0 m c (t.val - 1) (Nat.lt_of_le_of_lt (Nat.sub_le _ _) t.isLt)).2.1,
         accT (iblk m c 2 t) (iblk m c 3 t) (iblk m c 4 t) (outsAt0 m c (t.val - 1) (Nat.lt_of_le_of_lt (Nat.sub_le _ _) t.isLt)).2.2) :=
  (congrArg Prod.snd (outsAt0_B m c t h0 h1)).trans (Prod.ext
    (sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) (fun h => h1 ((hcond0_1 t).mp h)))
    (sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) (fun h => h1 ((hcond0_1 t).mp h))))

set_option maxHeartbeats 2000000 in
theorem outs_C (c : Dev nD) (t : Fin cfg0.N) (h0 : ¬t.val % 32 = 0) (h1 : t.val % 32 = 31) :
    outsAt0 m c t.val t.isLt
      = (cosBlock (accP (iblk m c 0 t) (iblk m c 1 t) (outsAt0 m c (t.val - 1) (Nat.lt_of_le_of_lt (Nat.sub_le _ _) t.isLt)).2.1)
            (accT (iblk m c 2 t) (iblk m c 3 t) (iblk m c 4 t) (outsAt0 m c (t.val - 1) (Nat.lt_of_le_of_lt (Nat.sub_le _ _) t.isLt)).2.2),
         accP (iblk m c 0 t) (iblk m c 1 t) (outsAt0 m c (t.val - 1) (Nat.lt_of_le_of_lt (Nat.sub_le _ _) t.isLt)).2.1,
         accT (iblk m c 2 t) (iblk m c 3 t) (iblk m c 4 t) (outsAt0 m c (t.val - 1) (Nat.lt_of_le_of_lt (Nat.sub_le _ _) t.isLt)).2.2) :=
  (outsAt0_C m c t h0 h1).trans (Prod.ext
    (out_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1))
    (Prod.ext
      (sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1))
      (sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1))))

/-! ## The invariant, by induction over the grid points -/

/-- After point n the accumulators hold the histograms of the first 128·(n % 32 + 1) entries of the rows of block
    n / 32. -/
def Inv (c : Dev nD) (n : ℕ) (hn : n < cfg0.N) : Prop :=
  Holds (mzP m c) (valP m c) (outsAt0 m c n hn).2.1 (n / 32) (128 * (n % 32 + 1))
    ∧ Holds (mzT m c) (valT m c) (outsAt0 m c n hn).2.2 (n / 32) (128 * (n % 32 + 1))

/-- A first tile: the accumulators were zeroed. -/
theorem inv_A (c : Dev nD) (t : Fin cfg0.N) (h0 : t.val % 32 = 0) : Inv m c t.val t.isLt := by
  have h1 : ¬t.val % 32 = 31 := by omega
  have e := outs_A m c t h0 h1
  have z7 : Holds (mzP m c) (valP m c) (k0_pay7 (F := Ideal)) (t.val / 32) (128 * (t.val % 32)) := by
    rw [h0]; exact holds_zero7 _ _ _
  have z8 : Holds (mzT m c) (fun r col => at2 (V m c main_arg3) r col * at2 (V m c main_arg4) r col)
      (k0_pay8 (F := Ideal)) (t.val / 32) (128 * (t.val % 32)) := by
    rw [h0]; exact holds_zero8 _ _ _
  unfold Inv
  exact ⟨holds_congr (congrArg Prod.fst e) (holds_stepP _ _ _ _ _ _ _ z7 (blk0 m c t) (blk1 m c t)),
    holds_congr (congrArg Prod.snd e)
      (holds_stepT _ _ _ _ _ _ _ _ _ z8 (blk2 m c t) (blk3 m c t) (blk4 m c t))⟩

/-- A later tile: the accumulators hold what the tile before left. -/
theorem inv_BC (c : Dev nD) (t : Fin cfg0.N) (h0 : ¬t.val % 32 = 0)
    (ih : Inv m c (t.val - 1) (Nat.lt_of_le_of_lt (Nat.sub_le _ _) t.isLt)) : Inv m c t.val t.isLt := by
  have e1 : (t.val - 1) / 32 = t.val / 32 := by omega
  have e2 : (t.val - 1) % 32 + 1 = t.val % 32 := by omega
  have ih1 := ih.1
  have ih2 : Holds (mzT m c) (fun r col => at2 (V m c main_arg3) r col * at2 (V m c main_arg4) r col) _ _ _ := ih.2
  rw [e1, e2] at ih1 ih2
  have e : (outsAt0 m c t.val t.isLt).2
      = (accP (iblk m c 0 t) (iblk m c 1 t) (outsAt0 m c (t.val - 1) (Nat.lt_of_le_of_lt (Nat.sub_le _ _) t.isLt)).2.1,
         accT (iblk m c 2 t) (iblk m c 3 t) (iblk m c 4 t) (outsAt0 m c (t.val - 1) (Nat.lt_of_le_of_lt (Nat.sub_le _ _) t.isLt)).2.2) := by
    by_cases h1 : t.val % 32 = 31
    · exact congrArg Prod.snd (outs_C m c t h0 h1)
    · exact outs_B m c t h0 h1
  unfold Inv
  exact ⟨holds_congr (congrArg Prod.fst e) (holds_stepP _ _ _ _ _ _ _ ih1 (blk0 m c t) (blk1 m c t)),
    holds_congr (congrArg Prod.snd e)
      (holds_stepT _ _ _ _ _ _ _ _ _ ih2 (blk2 m c t) (blk3 m c t) (blk4 m c t))⟩

theorem inv_all (c : Dev nD) : ∀ (n : ℕ) (hn : n < cfg0.N), Inv m c n hn
  | 0, hn => inv_A m c ⟨0, hn⟩ rfl
  | n + 1, hn => by
    by_cases h0 : (n + 1) % 32 = 0
    · exact inv_A m c ⟨n + 1, hn⟩ h0
    · exact inv_BC m c ⟨n + 1, hn⟩ h0 (inv_all c n _)

end Cert.KernelIdeal.Accum

end
-- ==== Proof.KernelFlush.lean ====
/-
  The kernel's result array is the column of the rows' cosines.

  At the last tile of a row block the two accumulators are the rows' histograms (all 4096 entries are in), and the
  output block written back there holds the cosines of the block's 32 rows. The blocks written back at the points
  32·i + 31 cover the [2048, 1] result array: row r lies in the block of row block r / 32.
-/
import proofs.«120698_j83373905149952_2_alg».proof.Proof.KernelAccum
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Pieces Cert.KernelIdeal.Payloads Cert.Hist

variable (m : (ℓ : Loc nD τ sig) → Buf (Elt Ideal) ℓ)

/-! ## The result array -/

/-- The rows' cosines as a [2048, 1] column (the sums over the bins running over the 2048 cells). -/
def G (c : Dev nD) : S2048x1.Idx → EReal := fun i =>
  cosRow sumK (V m c main_arg0) (V m c main_arg1) (V m c main_arg2) (V m c main_arg3) (V m c main_arg4) (i 0)

/-- Reading any column through point t's block of the result array: the column at the block's embedded index. -/
theorem read_blk5 (g : S2048x1.Idx → EReal) (t : Fin cfg0.N) (y : ((cfg0.win 5).xblock (grid0.coords t)).Idx) :
    ((cfg0.win 5).blk t).view.read (Elt Ideal) g y = g (((cfg0.win 5).blk t).view.emb y) := by
  rw [View.read_apply]; rfl

/-- What is written back of any block contents: the contents at the same index. -/
theorem cut5 (X : S32x1.Idx → EReal) (t : Fin cfg0.N) (y : ((cfg0.win 5).xblock (grid0.coords t)).Idx) :
    (cfg0.win 5).cut (grid0.coords t) X y = X ((cfg0.win 5).xinj (grid0.coords t) y) := rfl

/-- What a last tile writes back is its block of the column of cosines. -/
theorem flushed_eq (c : Dev nD) (t : Fin cfg0.N) (hf : (cfg0.win 5).flush t = true) :
    (dats m 0 c).flushed 5 t = ((cfg0.win 5).blk t).view.read (Elt Ideal) (G m c) := by
  have h1 : t.val % 32 = 31 := (flush0_5 t).mp hf
  have h0 : ¬t.val % 32 = 0 := by omega
  have hN : t.val < 2048 := lt_of_lt_of_eq t.isLt (show cfg0.N = 2048 from N_0)
  have hJ : 128 * (t.val % 32 + 1) = 4096 := by omega
  have e50 : win0_5.index t (0 : Fin 2) = t.val / 32 := (idx_facts t).2.2.2.2.2.2.2.2.2.2.1
  -- the two finished accumulators, as opaque values with what they hold
  obtain ⟨S0, S1, eO, hS0, hS1⟩ : ∃ S0 S1 : Vec Ideal S32x16x128 .f32,
      outsAt0 m c t.val t.isLt = (cosBlock S0 S1, S0, S1)
      ∧ Holds (mzP m c) (valP m c) S0 (t.val / 32) (128 * (t.val % 32 + 1))
      ∧ Holds (mzT m c) (valT m c) S1 (t.val / 32) (128 * (t.val % 32 + 1)) := by
    have hI := inv_all m c t.val t.isLt
    have eO := outs_C m c t h0 h1
    exact ⟨_, _, eO, holds_congr (congrArg Prod.fst (congrArg Prod.snd eO)).symm hI.1,
      holds_congr (congrArg Prod.snd (congrArg Prod.snd eO)).symm hI.2⟩
  rw [hJ] at hS0 hS1
  -- the block of cosines as a function of a variable index
  have hB : (cosBlock (F := Ideal) S0 S1 : S32x1.Idx → EReal) = fun j =>
      cosRow sumK (V m c main_arg0) (V m c main_arg1) (V m c main_arg2) (V m c main_arg3) (V m c main_arg4)
        ⟨32 * (t.val / 32) + (j 0).val, by have h32 : (j 0).val < 32 := (j 0).isLt; omega⟩ := by
    funext j
    obtain ⟨p, u, rfl⟩ : ∃ (p : Fin 32) (u : Fin 1), j = ix2 p u := ⟨j 0, j 1, eq_ix2 j⟩
    have hp := p.isLt
    have hr : 32 * (t.val / 32) + p.val < 2048 := by omega
    exact cosBlock_apply S0 S1 p u
      (predH (V m c main_arg0) (V m c main_arg1) ⟨32 * (t.val / 32) + p.val, hr⟩)
      (targH (V m c main_arg2) (V m c main_arg3) (V m c main_arg4) ⟨32 * (t.val / 32) + p.val, hr⟩)
      (fun k1 k0 => (hS0 p k1 k0).trans
        (histUpTo_all _ _ _ _ (fun col => at2_fin _ ⟨32 * (t.val / 32) + p.val, hr⟩ col)
          (fun col => at2_fin _ ⟨32 * (t.val / 32) + p.val, hr⟩ col) _))
      (fun k1 k0 => (hS1 p k1 k0).trans
        (histUpTo_all _ _ _ _ (fun col => at2_fin _ ⟨32 * (t.val / 32) + p.val, hr⟩ col)
          (fun col => by
            show at2 _ _ _ * at2 _ _ _ = _
            rw [at2_fin _ ⟨32 * (t.val / 32) + p.val, hr⟩ col, at2_fin _ ⟨32 * (t.val / 32) + p.val, hr⟩ col]) _))
  show (cfg0.win 5).cut (grid0.coords t) ((dats m 0 c).after 5 t) = _
  rw [after0_5, show (outsAt0 m c t.val t.isLt).1 = cosBlock S0 S1 from congrArg Prod.fst eO, hB]
  funext y
  rw [read_blk5, cut5]
  unfold G
  refine congrArg
    (cosRow sumK (V m c main_arg0) (V m c main_arg1) (V m c main_arg2) (V m c main_arg3) (V m c main_arg4))
    (Fin.ext ?_)
  show 32 * (t.val / 32) + (y 0).val = win0_5.index t (0 : Fin 2) * 32 + 1 * (y 0).val
  rw [e50]; omega

/-- An index of the result array is in point t's block iff each coordinate is in the block's range on its axis. -/
theorem mem_blk (t : Fin cfg0.N) (i : S2048x1.Idx) :
    i ∈ ((cfg0.win 5).blk t).view.set
      ↔ ∀ a : Fin 2, win0_5.index t a * S32x1.size a ≤ (i a).val ∧ (i a).val < win0_5.index t a * S32x1.size a + S32x1.size a := by
  show i ∈ ((View.whole main_v0).slice (win0_5.rect t)).set ↔ _
  rw [View.set_slice_whole, Rect.mem_set_unit]
  exact Iff.rfl

/-- The blocks written back cover the result array: row r is in the block of the last tile of row block r / 32. -/
theorem cover (i : S2048x1.Idx) : ∃ t : Fin cfg0.N, (cfg0.win 5).flush t = true ∧ i ∈ ((cfg0.win 5).blk t).view.set := by
  have hi0 : (i 0).val < 2048 := (i 0).isLt
  have hi1 : (i 1).val < 1 := (i 1).isLt
  have hN : cfg0.N = 2048 := N_0
  refine ⟨⟨32 * ((i 0).val / 32) + 31, by rw [hN]; omega⟩, (flush0_5 _).mpr (by show (32 * ((i 0).val / 32) + 31) % 32 = 31; omega), ?_⟩
  rw [mem_blk]
  have f := idx_facts ⟨32 * ((i 0).val / 32) + 31, by rw [hN]; omega⟩
  have e50 := f.2.2.2.2.2.2.2.2.2.2.1
  have e51 := f.2.2.2.2.2.2.2.2.2.2.2
  intro a
  match a with
  | ⟨0, _⟩ =>
    show win0_5.index _ (0 : Fin 2) * 32 ≤ (i 0).val ∧ (i 0).val < win0_5.index _ (0 : Fin 2) * 32 + 32
    rw [e50]
    show (32 * ((i 0).val / 32) + 31) / 32 * 32 ≤ (i 0).val ∧ (i 0).val < (32 * ((i 0).val / 32) + 31) / 32 * 32 + 32
    omega
  | ⟨1, _⟩ =>
    show win0_5.index _ (1 : Fin 2) * 1 ≤ (i 1).val ∧ (i 1).val < win0_5.index _ (1 : Fin 2) * 1 + 1
    rw [e51]
    omega

/-- So the result array ends holding the column of cosines. -/
theorem final (c : Dev nD) : (dats m 0 c).arrAt 5 cfg0.N = G m c :=
  (dats m 0 c).arrAt_eq_of_cover 5 (G m c) (fun t hf => flushed_eq m c t hf) (cover)

end Cert.KernelIdeal.Accum

end
-- ==== Proof.KernelValue.lean ====
/-
  The kernel program's result is the specification's loss.

  After the region the host sums the [2048, 1] column of cosines from the zero word, divides by 2048 and subtracts
  from 1. The sum over the column's indices is the sum over the rows; and each row's cosine, which the kernel formed
  by summing over 2048 cells, is the cosine summed over the 2000 bins (the histograms vanish on the 48 cells past
  1999).
-/
import proofs.«120698_j83373905149952_2_alg».proof.Proof.KernelFlush
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Accum Cert.Hist

variable (m : (ℓ : Loc nD τ sig) → Buf (Elt Ideal) ℓ) (ρ : Dev nD → PrngReg)

/-- The loss of the argument arrays as the program finds them. -/
def result (c : Dev nD) : Buf (Elt Ideal) ((c.tc : Thread nD τ).loc main_v3) := fun _ =>
  loss (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4))

/-- The sum of the column of cosines is the sum of the rows' cosines over the 2000 bins. -/
theorem sum_G (c : Dev nD) :
    ∑ i : S2048x1.Idx, G m c i
      = ∑ r : Fin 2048, cosRow sumR (V m c main_arg0) (V m c main_arg1) (V m c main_arg2) (V m c main_arg3)
          (V m c main_arg4) r := by
  rw [sum_idx2]
  refine Finset.sum_congr rfl fun r _ => ?_
  rw [Fin.sum_univ_one]
  exact cosRow_pad _ _ _ _ _ r

/-- What the lines after the region leave in the result buffer. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  rw [show Pipeline.withArrays spec0 c (V0 m c) (fun w => (dats m 0 c).arrAt w cfg0.N) (Proc.devRef .tc main_v0) = G m c from
    (Pipeline.withArrays_arr spec0 launch0.win.arr_inj c _ _ 5).trans (final m c)]
  funext i
  show Ideal.ofBits .f32 0x3F800000#32
      - Ideal.div (Ideal.hostReduceAdd reducesTo_S2048x1_S_d0_1 (G m c) (Ideal.ofBits .f32 0x00000000#32) i)
          (Ideal.ofBits .f32 0x45000000#32) = _
  rw [Ideal.hostReduceAdd_total reducesTo_S2048x1_S_d0_1 (fun b => b.elim0), sum_G]
  rfl

/-- The run: the result buffer at the loss, the arguments unchanged. -/
theorem run : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v3 (Pipeline.mem_restRefs_of main_v3 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.KValue

end
-- ==== Proof.LibIndexedRows.lean ====
/-
  Rows picked out of a matrix, and rows added into a matrix, through a column of index words.

  `x[idx]` for a matrix `x : [N, C]` (or a vector `x : [N]`) and a column of index words `idx : [E, 1]` lowers to a
  `gather` whose result row `e` is the row of `x` named by the word `idx[e, 0]`, read as a signed integer and clamped into
  `[0, N - 1]`. The accumulating `scatter` that `segment_sum` lowers to adds update row `e` into the row of the operand
  named by `idx[e, 0]`, read as a signed integer and NOT clamped: an update whose word is outside `[0, N)` is dropped.
  So an update that lands on row `j` has index word exactly `j`.
-/
import Idealize.ShloMosaic.PureOps.Ideal
import Idealize.ShloMosaic.Lib.ValueIdx

noncomputable section

namespace Cert.Lib

open Idealize.ShloMosaic Idealize.ShloMosaic.ValueIdx

section Gather
variable {α : Type}

/-- The dimension numbers of "row `idx[e, 0]` of an `[N, C]` matrix, for each `e`". -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a word names in an array of `N` rows: the word read signed, clamped into `[0, N - 1]`. -/
def clampRow (N : Nat) (hN : 0 < N) {w : Nat} (b : BitVec w) : Fin N := ⟨min b.toInt.toNat (N - 1), by omega⟩

theorem rows_coord0 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowsDims N E C wf).start (ix2 e c) idx 0 + (rowsDims N E C wf).batchCoord (ix2 e c) 0
      + (rowsDims N E C wf).offCoord (ix2 e c) 0 = min (idx (ix2 e 0)).toInt.toNat (N - 1) := by
  have hm : (0 : Fin 2) ∈ (rowsDims N E C wf).startIndexMap := by simp
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos hm]
  have hsi : (rowsDims N E C wf).siIdx (ix2 e c) ⟨List.idxOf (0 : Fin 2) (rowsDims N E C wf).startIndexMap,
      List.idxOf_lt_length_iff.2 hm⟩ = ix2 e 0 := by
    funext b; refine Fin.ext ?_
    match b with
    | ⟨0, _⟩ => rfl
    | ⟨1, _⟩ => rfl
  rw [hsi]
  rfl

theorem rows_coord1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowsDims N E C wf).start (ix2 e c) idx 1 + (rowsDims N E C wf).batchCoord (ix2 e c) 1
      + (rowsDims N E C wf).offCoord (ix2 e c) 1 = c.val := by
  have hm : (1 : Fin 2) ∉ (rowsDims N E C wf).startIndexMap := by simp
  have hk : (1 : Fin 2) ∈ (rowsDims N E C wf).sKept := (GatherDims.mem_sKept _ _).mpr ⟨by simp, List.not_mem_nil⟩
  rw [GatherDims.batchCoord_eq_zero _ _ _ List.not_mem_nil]
  unfold GatherDims.start
  rw [dif_neg hm]
  unfold GatherDims.offCoord
  rw [dif_pos hk]
  simp only [Nat.zero_add, Nat.add_zero]
  rfl

/-- The gather at `(e, c)`: the matrix at row `idx[e, 0]` (signed, clamped) and column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N E C wf) x idx (ix2 e c) = x (ix2 (clampRow N hN (idx (ix2 e 0))) c) := by
  unfold Host.gather
  congr 1
  funext a
  refine Fin.ext ?_
  match a with
  | ⟨0, _⟩ => exact rows_coord0 wf idx e c
  | ⟨1, _⟩ => exact rows_coord1 wf idx e c

/-- The dimension numbers of "entry `idx[e, 0]` of an `[N]` vector, for each `e`". -/
abbrev entriesDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather at `e`: the vector at entry `idx[e, 0]` (signed, clamped). -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (clampRow N hN (idx (ix2 e 0)))) := by
  unfold Host.gather
  congr 1
  funext a
  obtain rfl : a = 0 := Subsingleton.elim _ _
  refine Fin.ext ?_
  show (entriesDims N E wf).start (ix1 e) idx 0 + (entriesDims N E wf).batchCoord (ix1 e) 0
    + (entriesDims N E wf).offCoord (ix1 e) 0 = _
  have hm : (0 : Fin 1) ∈ (entriesDims N E wf).startIndexMap := List.mem_singleton.mpr rfl
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos hm]
  have hsi : (entriesDims N E wf).siIdx (ix1 e) ⟨List.idxOf (0 : Fin 1) (entriesDims N E wf).startIndexMap,
      List.idxOf_lt_length_iff.2 hm⟩ = ix2 e 0 := by
    funext b; refine Fin.ext ?_
    match b with
    | ⟨0, _⟩ => rfl
    | ⟨1, _⟩ => rfl
  rw [hsi]
  rfl

end Gather

section Scatter

/-- The dimension numbers of "add update row `e` into operand row `idx[e, 0]`". -/
abbrev addRowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update that lands on row `j` has index word `j`: the word is read signed and is not clamped. -/
theorem addRows_hit {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (addRowsDims N E C wf).resultIdx? (ix2 e c) idx = some i) :
    (idx (ix2 e 0)).toInt = ((i 0).val : Int) := by
  unfold ScatterDims.resultIdx? at h
  split at h
  · rename_i hb
    have hi := congrFun (Option.some.inj h) 0
    have hv : ((addRowsDims N E C wf).start (ix2 e c) idx 0 + (addRowsDims N E C wf).window (ix2 e c) 0).toNat = (i 0).val :=
      congrArg Fin.val hi
    have hpos := (hb 0).1
    have hm : (0 : Fin 2) ∈ (addRowsDims N E C wf).scatterDimsToOperandDims := by simp
    have hw : (addRowsDims N E C wf).window (ix2 e c) 0 = 0 := by
      unfold ScatterDims.window
      rw [dif_neg]
      simp [ScatterDims.sKept, Shape.kept]
    have hs : (addRowsDims N E C wf).start (ix2 e c) idx 0 = (idx (ix2 e 0)).toInt := by
      unfold ScatterDims.start
      rw [dif_pos hm]
      have hsi : (addRowsDims N E C wf).siIdx (ix2 e c) ⟨List.idxOf (0 : Fin 2) (addRowsDims N E C wf).scatterDimsToOperandDims,
          List.idxOf_lt_length_iff.2 hm⟩ = ix2 e 0 := by
        funext b; refine Fin.ext ?_
        match b with
        | ⟨0, _⟩ => rfl
        | ⟨1, _⟩ => rfl
      rw [hsi]
    rw [hw, hs] at hv hpos
    simp only [Nat.cast_zero, add_zero] at hv hpos
    omega
  · exact absurd h (by simp)

end Scatter

end Cert.Lib

end
-- ==== Proof.LibAdjacency.lean ====
/-
  A graph aggregation written two ways, over the extended reals.

  One program builds a dense adjacency matrix `A[i, k]` = the sum of the weights `w e` of the edges `e` with
  `(dst e, src e) = (i, k)` — one accumulating scatter of scalars through a two-column array of index words — and
  multiplies `A` by a feature matrix `M`. The other takes row `src e` of `M` for every edge, scales it by `w e` and adds
  it into row `dst e` by an accumulating scatter of rows. When every weight is nonnegative the two agree with no
  finiteness assumption: `(a + b) * c = a * c + b * c` holds on the extended reals for `0 ≤ a`, `0 ≤ b`
  (`sum_mul_of_nonneg`), so each entry `A[i, k] * M[k]` spreads over its edges, and regrouping the edges into `i` by
  their source gives the other sum (`aggregate_eq`).

  Then the two scatters read at an entry: the scalar scatter through two columns of index words
  (`pairs_scatterAdd_apply`) and the row scatter through one column (`addRows_scatterAdd_apply`), each the operand's
  entry plus the sum of the updates whose index words name it, when every word names a row of the operand. Last, a word
  that names a row is its own clamp (`clampRow_of_range`), and the nonnegativity facts that carry `0 ≤ w e` through a
  reciprocal square root, an accumulating scatter, a gather and a product.
-/
import Idealize.ShloMosaic.PureOps.Ideal
import Idealize.ShloMosaic.PureOps.Ideal.Laws
import Idealize.ShloMosaic.Lib.ValueIdx
import proofs.«120698_j83373905149952_2_alg».proof.Proof.LibIndexedRows

noncomputable section

open scoped BigOperators

namespace Cert.Lib

open Idealize.ShloMosaic Idealize.ShloMosaic.ValueIdx

/-! ## The algebra -/

/-- A sum of nonnegative extended reals times `m` is the sum of the products. -/
theorem sum_mul_of_nonneg {ι : Type*} (s : Finset ι) (a : ι → EReal) (ha : ∀ e ∈ s, 0 ≤ a e) (m : EReal) :
    (∑ e ∈ s, a e) * m = ∑ e ∈ s, a e * m := by
  classical
  induction s using Finset.induction_on with
  | empty => simp
  | insert x s hx ih =>
    rw [Finset.sum_insert hx, Finset.sum_insert hx,
      EReal.right_distrib_of_nonneg (ha x (Finset.mem_insert_self x s))
        (Finset.sum_nonneg fun e he => ha e (Finset.mem_insert_of_mem he)),
      ih fun e he => ha e (Finset.mem_insert_of_mem he)]

/-- Row `i` of (adjacency matrix) × (vector): the sum over the edges into `i` of the vector at the edge's source times
    the edge's weight. -/
theorem aggregate_eq {E N : ℕ} (D S : Fin E → Fin N) (a : Fin E → EReal) (ha : ∀ e, 0 ≤ a e) (M : Fin N → EReal)
    (i : Fin N) :
    ∑ k : Fin N, (∑ e ∈ Finset.univ.filter (fun e => D e = i ∧ S e = k), a e) * M k
      = ∑ e ∈ Finset.univ.filter (fun e => D e = i), M (S e) * a e := by
  have h1 : ∀ k : Fin N, (∑ e ∈ Finset.univ.filter (fun e => D e = i ∧ S e = k), a e) * M k
      = ∑ e ∈ (Finset.univ.filter (fun e => D e = i)).filter (fun e => S e = k), M (S e) * a e := by
    intro k
    rw [sum_mul_of_nonneg _ _ (fun e _ => ha e), Finset.filter_filter]
    refine Finset.sum_congr rfl fun e he => ?_
    rw [(Finset.mem_filter.mp he).2.2, mul_comm]
  rw [Finset.sum_congr rfl fun k _ => h1 k]
  exact Finset.sum_fiberwise _ S _

/-! ## Nonnegativity -/

/-- The reciprocal square root of a nonnegative extended real is nonnegative (`0 ↦ ⊤`, `⊤ ↦ 0`). -/
theorem rsqrt_nonneg (x : EReal) (h : 0 ≤ x) : 0 ≤ Ideal.rsqrt x := by
  induction x using EReal.rec with
  | bot => exact absurd h (by simp)
  | top => simp
  | coe r =>
    have hr : 0 ≤ r := by exact_mod_cast h
    rw [Ideal.rsqrt_coe, if_neg (not_lt.mpr hr)]
    split
    · exact le_top
    · exact_mod_cast inv_nonneg.mpr (Real.sqrt_nonneg r)

/-- An accumulating scatter of nonnegative updates into a nonnegative operand is nonnegative. -/
theorem scatterAdd_nonneg {s si su : Shape} {w : ℕ} (d : ScatterDims s si su) (Z : s.Idx → EReal) (idx : IVec si w)
    (U : su.Idx → EReal) (hZ : ∀ i, 0 ≤ Z i) (hU : ∀ j, 0 ≤ U j) (i : s.Idx) :
    0 ≤ Host.scatterAdd (F := Ideal) (φ := .f32) d Z idx U i :=
  add_nonneg (hZ i) (Finset.sum_nonneg fun j _ => hU j)

/-- A gather reads the operand at some index: what holds of every operand element holds of every result element. -/
theorem gather_forall {α : Type} {s si so : Shape} {w : ℕ} (d : GatherDims s si so) (x : s.Idx → α) (idx : IVec si w)
    (P : α → Prop) (hx : ∀ i, P (x i)) (j : so.Idx) : P (Host.gather d x idx j) :=
  hx _

/-- A product of nonnegative extended reals is nonnegative. -/
theorem mul_nonneg' (a b : EReal) (ha : 0 ≤ a) (hb : 0 ≤ b) : 0 ≤ a * b := EReal.mul_nonneg ha hb

/-! ## The scalar scatter through two columns of index words -/

/-- A sum over a rank-1 index set is the sum over its coordinate. -/
theorem sum_ix1 {M : Type*} [AddCommMonoid M] {n : Nat} (f : (⟨1, ![n]⟩ : Shape).Idx → M) :
    ∑ j, f j = ∑ e : Fin n, f (ix1 e) := by
  refine Fintype.sum_equiv ⟨fun j => j 0, fun e => ix1 e, fun j => (eq_ix1 j).symm, fun _ => rfl⟩ _ _ fun j => ?_
  exact congrArg f (eq_ix1 j)

/-- The dimension numbers of "add update `e` into the operand's entry `(idx[e, 0], idx[e, 1])`". -/
abbrev pairsDims (N E : Nat)
    (wf : ScatterDims.WF ⟨2, ![N, N]⟩ ⟨2, ![E, 2]⟩ ⟨1, ![E]⟩ [] [0, 1] [0, 1] 1) :
    ScatterDims ⟨2, ![N, N]⟩ ⟨2, ![E, 2]⟩ ⟨1, ![E]⟩ where
  updateWindowDims := []
  insertedWindowDims := [0, 1]
  scatterDimsToOperandDims := [0, 1]
  indexVectorDim := 1
  wf := wf

theorem pairs_window {N E : Nat}
    (wf : ScatterDims.WF ⟨2, ![N, N]⟩ ⟨2, ![E, 2]⟩ ⟨1, ![E]⟩ [] [0, 1] [0, 1] 1)
    (j : (⟨1, ![E]⟩ : Shape).Idx) (a : Fin 2) : (pairsDims N E wf).window j a = 0 := by
  unfold ScatterDims.window
  rw [dif_neg]
  match a with
  | ⟨0, _⟩ => simp [ScatterDims.sKept, Shape.kept]
  | ⟨1, _⟩ => simp [ScatterDims.sKept, Shape.kept]

theorem pairs_start0 {N E w : Nat}
    (wf : ScatterDims.WF ⟨2, ![N, N]⟩ ⟨2, ![E, 2]⟩ ⟨1, ![E]⟩ [] [0, 1] [0, 1] 1)
    (idx : IVec ⟨2, ![E, 2]⟩ w) (e : Fin E) :
    (pairsDims N E wf).start (ix1 e) idx 0 = (idx (ix2 e 0)).toInt := by
  have hm : (0 : Fin 2) ∈ (pairsDims N E wf).scatterDimsToOperandDims := by simp
  unfold ScatterDims.start
  rw [dif_pos hm]
  have hsi : (pairsDims N E wf).siIdx (ix1 e) ⟨List.idxOf (0 : Fin 2) (pairsDims N E wf).scatterDimsToOperandDims,
      List.idxOf_lt_length_iff.2 hm⟩ = ix2 e 0 := by
    funext b; refine Fin.ext ?_
    match b with
    | ⟨0, _⟩ => rfl
    | ⟨1, _⟩ => rfl
  rw [hsi]

theorem pairs_start1 {N E w : Nat}
    (wf : ScatterDims.WF ⟨2, ![N, N]⟩ ⟨2, ![E, 2]⟩ ⟨1, ![E]⟩ [] [0, 1] [0, 1] 1)
    (idx : IVec ⟨2, ![E, 2]⟩ w) (e : Fin E) :
    (pairsDims N E wf).start (ix1 e) idx 1 = (idx (ix2 e 1)).toInt := by
  have hm : (1 : Fin 2) ∈ (pairsDims N E wf).scatterDimsToOperandDims := by simp
  unfold ScatterDims.start
  rw [dif_pos hm]
  have hsi : (pairsDims N E wf).siIdx (ix1 e) ⟨List.idxOf (1 : Fin 2) (pairsDims N E wf).scatterDimsToOperandDims,
      List.idxOf_lt_length_iff.2 hm⟩ = ix2 e 1 := by
    funext b; refine Fin.ext ?_
    match b with
    | ⟨0, _⟩ => rfl
    | ⟨1, _⟩ => rfl
  rw [hsi]

/-- Update `e` lands at the entry its two index words name, when both name a row of the matrix. -/
theorem pairs_resultIdx {N E w : Nat}
    (wf : ScatterDims.WF ⟨2, ![N, N]⟩ ⟨2, ![E, 2]⟩ ⟨1, ![E]⟩ [] [0, 1] [0, 1] 1)
    (idx : IVec ⟨2, ![E, 2]⟩ w) (D S : Fin E → Fin N)
    (hD : ∀ e, (idx (ix2 e 0)).toInt = ((D e).val : Int)) (hS : ∀ e, (idx (ix2 e 1)).toInt = ((S e).val : Int))
    (e : Fin E) : (pairsDims N E wf).resultIdx? (ix1 e) idx = some (ix2 (D e) (S e)) := by
  have h0 : (pairsDims N E wf).start (ix1 e) idx 0 + (pairsDims N E wf).window (ix1 e) 0 = ((D e).val : Int) := by
    rw [pairs_start0, pairs_window, hD]; simp
  have h1 : (pairsDims N E wf).start (ix1 e) idx 1 + (pairsDims N E wf).window (ix1 e) 1 = ((S e).val : Int) := by
    rw [pairs_start1, pairs_window, hS]; simp
  have key : ∀ a : Fin 2, (pairsDims N E wf).start (ix1 e) idx a + ((pairsDims N E wf).window (ix1 e) a : Nat)
      = ((ix2 (D e) (S e) a).val : Int) := by
    intro a
    match a with
    | ⟨0, _⟩ => exact h0
    | ⟨1, _⟩ => exact h1
  unfold ScatterDims.resultIdx?
  rw [dif_pos]
  · congr 1
    funext a; refine Fin.ext ?_
    show ((pairsDims N E wf).start (ix1 e) idx a + ((pairsDims N E wf).window (ix1 e) a : Nat)).toNat
      = (ix2 (D e) (S e) a).val
    rw [key a, Int.toNat_natCast]
  · intro a
    rw [key a]
    exact ⟨Int.natCast_nonneg _, by exact_mod_cast (ix2 (D e) (S e) a).isLt⟩

/-- The scatter at `(i, k)`: the operand's entry plus the sum of the updates whose two index words are `i` and `k`. -/
theorem pairs_scatterAdd_apply {N E w : Nat}
    (wf : ScatterDims.WF ⟨2, ![N, N]⟩ ⟨2, ![E, 2]⟩ ⟨1, ![E]⟩ [] [0, 1] [0, 1] 1)
    (Z : (⟨2, ![N, N]⟩ : Shape).Idx → EReal) (idx : IVec ⟨2, ![E, 2]⟩ w) (u : (⟨1, ![E]⟩ : Shape).Idx → EReal)
    (D S : Fin E → Fin N)
    (hD : ∀ e, (idx (ix2 e 0)).toInt = ((D e).val : Int)) (hS : ∀ e, (idx (ix2 e 1)).toInt = ((S e).val : Int))
    (i k : Fin N) :
    Host.scatterAdd (F := Ideal) (φ := .f32) (pairsDims N E wf) Z idx u (ix2 i k)
      = Z (ix2 i k) + ∑ e ∈ Finset.univ.filter (fun e : Fin E => D e = i ∧ S e = k), u (ix1 e) := by
  show Z (ix2 i k) + ∑ j ∈ Finset.univ.filter (fun j => (pairsDims N E wf).resultIdx? j idx = some (ix2 i k)), u j = _
  congr 1
  rw [Finset.sum_filter, sum_ix1, Finset.sum_filter]
  refine Finset.sum_congr rfl fun e _ => ?_
  rw [pairs_resultIdx wf idx D S hD hS e]
  have hiff : (some (ix2 (D e) (S e)) = some (ix2 i k)) ↔ (D e = i ∧ S e = k) := by
    constructor
    · intro h
      have h' := Option.some.inj h
      exact ⟨congrFun h' 0, congrFun h' 1⟩
    · rintro ⟨rfl, rfl⟩; rfl
  simp only [hiff]

/-! ## The row scatter through one column of index words -/

theorem addRows_window0 {N E C : Nat}
    (wf : ScatterDims.WF ⟨2, ![N, C]⟩ ⟨2, ![E, 1]⟩ ⟨2, ![E, C]⟩ [1] [0] [0] 1)
    (j : (⟨2, ![E, C]⟩ : Shape).Idx) : (addRowsDims N E C wf).window j 0 = 0 := by
  unfold ScatterDims.window
  rw [dif_neg]
  simp [ScatterDims.sKept, Shape.kept]

theorem addRows_window1 {N E C : Nat}
    (wf : ScatterDims.WF ⟨2, ![N, C]⟩ ⟨2, ![E, 1]⟩ ⟨2, ![E, C]⟩ [1] [0] [0] 1)
    (e : Fin E) (c : Fin C) : (addRowsDims N E C wf).window (ix2 e c) 1 = c.val := by
  have hk : (1 : Fin 2) ∈ (addRowsDims N E C wf).sKept := by simp [ScatterDims.sKept, Shape.kept]
  unfold ScatterDims.window
  rw [dif_pos hk]
  rfl

theorem addRows_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (addRowsDims N E C wf).start (ix2 e c) idx 0 = (idx (ix2 e 0)).toInt := by
  have hm : (0 : Fin 2) ∈ (addRowsDims N E C wf).scatterDimsToOperandDims := by simp
  unfold ScatterDims.start
  rw [dif_pos hm]
  have hsi : (addRowsDims N E C wf).siIdx (ix2 e c) ⟨List.idxOf (0 : Fin 2) (addRowsDims N E C wf).scatterDimsToOperandDims,
      List.idxOf_lt_length_iff.2 hm⟩ = ix2 e 0 := by
    funext b; refine Fin.ext ?_
    match b with
    | ⟨0, _⟩ => rfl
    | ⟨1, _⟩ => rfl
  rw [hsi]

theorem addRows_start1 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (addRowsDims N E C wf).start j idx 1 = 0 := by
  unfold ScatterDims.start
  rw [dif_neg]
  simp

/-- Update `(e, c)` lands at row `idx[e, 0]`, column `c`, when the word names a row of the matrix. -/
theorem addRows_resultIdx {N E C w : Nat}
    (wf : ScatterDims.WF ⟨2, ![N, C]⟩ ⟨2, ![E, 1]⟩ ⟨2, ![E, C]⟩ [1] [0] [0] 1)
    (idx : IVec ⟨2, ![E, 1]⟩ w) (D : Fin E → Fin N)
    (hD : ∀ e, (idx (ix2 e 0)).toInt = ((D e).val : Int)) (e : Fin E) (c : Fin C) :
    (addRowsDims N E C wf).resultIdx? (ix2 e c) idx = some (ix2 (D e) c) := by
  have key : ∀ a : Fin 2, (addRowsDims N E C wf).start (ix2 e c) idx a + ((addRowsDims N E C wf).window (ix2 e c) a : Nat)
      = ((ix2 (D e) c a).val : Int) := by
    intro a
    match a with
    | ⟨0, _⟩ =>
      show (addRowsDims N E C wf).start (ix2 e c) idx 0 + ((addRowsDims N E C wf).window (ix2 e c) 0 : Nat) = ((D e).val : Int)
      rw [addRows_start0, addRows_window0, hD]; simp
    | ⟨1, _⟩ =>
      show (addRowsDims N E C wf).start (ix2 e c) idx 1 + ((addRowsDims N E C wf).window (ix2 e c) 1 : Nat) = (c.val : Int)
      rw [addRows_start1, addRows_window1]; simp
  unfold ScatterDims.resultIdx?
  rw [dif_pos]
  · congr 1
    funext a; refine Fin.ext ?_
    show ((addRowsDims N E C wf).start (ix2 e c) idx a + ((addRowsDims N E C wf).window (ix2 e c) a : Nat)).toNat
      = (ix2 (D e) c a).val
    rw [key a, Int.toNat_natCast]
  · intro a
    rw [key a]
    exact ⟨Int.natCast_nonneg _, by exact_mod_cast (ix2 (D e) c a).isLt⟩

/-- The scatter at `(i, c)`: the operand's entry plus the sum over the update rows whose index word is `i` of their
    entry in column `c`. -/
theorem addRows_scatterAdd_apply {N E C w : Nat}
    (wf : ScatterDims.WF ⟨2, ![N, C]⟩ ⟨2, ![E, 1]⟩ ⟨2, ![E, C]⟩ [1] [0] [0] 1)
    (Z : (⟨2, ![N, C]⟩ : Shape).Idx → EReal) (idx : IVec ⟨2, ![E, 1]⟩ w) (U : (⟨2, ![E, C]⟩ : Shape).Idx → EReal)
    (D : Fin E → Fin N) (hD : ∀ e, (idx (ix2 e 0)).toInt = ((D e).val : Int)) (i : Fin N) (c : Fin C) :
    Host.scatterAdd (F := Ideal) (φ := .f32) (addRowsDims N E C wf) Z idx U (ix2 i c)
      = Z (ix2 i c) + ∑ e ∈ Finset.univ.filter (fun e : Fin E => D e = i), U (ix2 e c) := by
  show Z (ix2 i c) + ∑ j ∈ Finset.univ.filter (fun j => (addRowsDims N E C wf).resultIdx? j idx = some (ix2 i c)), U j = _
  congr 1
  rw [Finset.sum_filter, sum_idx2, Finset.sum_filter]
  refine Finset.sum_congr rfl fun e _ => ?_
  have hiff : ∀ c' : Fin C, (some (ix2 (D e) c') = some (ix2 i c)) ↔ (D e = i ∧ c' = c) := by
    intro c'
    constructor
    · intro h
      have h' := Option.some.inj h
      exact ⟨congrFun h' 0, congrFun h' 1⟩
    · rintro ⟨rfl, rfl⟩; rfl
  simp only [addRows_resultIdx wf idx D hD e, hiff]
  by_cases hi : D e = i
  · simp [hi]
  · simp [hi]

/-- A word that names a row is its own clamp. -/
theorem clampRow_of_range (N : ℕ) (hN : 0 < N) {w : ℕ} (b : BitVec w) (r : Fin N) (h : b.toInt = (r.val : Int)) :
    clampRow N hN b = r := by
  refine Fin.ext ?_
  show min b.toInt.toNat (N - 1) = r.val
  rw [h, Int.toNat_natCast]
  have := r.isLt
  omega

end Cert.Lib

end
-- ==== Proof.LibCountColumn.lean ====
/-
  Counting through a column of index words, as a vector and as a one-column matrix.

  The accumulating scatter adds update `j` into the operand element at `start j + window j`, where the start is
  the index word read as a SIGNED integer and NOT clamped, and an update that lands outside the operand is dropped.
  So update `j` lands on the element `i` exactly when `start j a + window j a = i a` on every axis `a`
  (`resultIdx?_eq_some_iff`), with no assumption on the index words.

  Two scatters read the same `[E, 1]` column of index words. One adds a vector of `E` updates into a vector of
  `N` entries: update `e` lands on entry `p` iff the word `idx[e, 0]`, read signed, is `p`
  (`addEntries_resultIdx_iff`). The other adds an `[E, C]` matrix of update rows into an `[N, C]` matrix: update
  `(e, c')` lands on `(p, c)` iff the word `idx[e, 0]` is `p` and `c' = c` (`addRows_resultIdx_iff`).
  Hence each scatter, at an entry, is the operand's entry plus the sum of the updates whose index word is that entry's
  row (`addEntries_scatterAdd_apply'`, `addRows_scatterAdd_apply'`) — words outside `[0, N)` name no row and their
  updates are dropped by both — and for `C = 1` the vector scatter at `p` is the column scatter at `(p, 0)` when
  the operands and the updates agree entry by entry (`scatterAdd_entries_eq_column`).
-/
import Idealize.ShloMosaic.PureOps.Ideal
import Idealize.ShloMosaic.PureOps.Ideal.Laws
import Idealize.ShloMosaic.Lib.ValueIdx
import proofs.«120698_j83373905149952_2_alg».proof.Proof.LibAdjacency

noncomputable section

open scoped BigOperators

namespace Cert.Lib

open Idealize.ShloMosaic Idealize.ShloMosaic.ValueIdx

/-! ## Where an update lands, for any dimension numbers -/

/-- Update `j` lands on the operand element `i` exactly when, on every operand axis, its signed unclamped start
    plus its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + ((d.window j a : Nat) : Int) = ((i a).val : Int) := by
  unfold ScatterDims.resultIdx?
  constructor
  · intro h
    split at h
    · rename_i hb
      intro a
      have hi := congrFun (Option.some.inj h) a
      have hv : (d.start j idx a + ((d.window j a : Nat) : Int)).toNat = (i a).val := congrArg Fin.val hi
      have hpos := (hb a).1
      omega
    · exact absurd h (by simp)
  · intro h
    rw [dif_pos]
    · congr 1
      funext a; refine Fin.ext ?_
      show (d.start j idx a + ((d.window j a : Nat) : Int)).toNat = (i a).val
      rw [h a, Int.toNat_natCast]
    · intro a
      rw [h a]
      exact ⟨Int.natCast_nonneg _, by exact_mod_cast (i a).isLt⟩

/-! ## The vector scatter through one column of index words -/

/-- The accumulating scatter of a vector of E updates into a vector of N entries through an [E,1] column of index words. -/
abbrev addEntriesDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The operand's one axis is inserted: the window coordinate on it is `0`. -/
theorem addEntries_window {N E : Nat}
    (wf : ScatterDims.WF ⟨1, ![N]⟩ ⟨2, ![E, 1]⟩ ⟨1, ![E]⟩ [] [0] [0] 1)
    (j : (⟨1, ![E]⟩ : Shape).Idx) (a : Fin 1) : (addEntriesDims N E wf).window j a = 0 := by
  obtain rfl : a = 0 := Subsingleton.elim _ _
  unfold ScatterDims.window
  rw [dif_neg]
  simp [ScatterDims.sKept, Shape.kept]

/-- The start of update `e` on the operand's one axis is the word `idx[e, 0]`, read signed. -/
theorem addEntries_start {N E w : Nat}
    (wf : ScatterDims.WF ⟨1, ![N]⟩ ⟨2, ![E, 1]⟩ ⟨1, ![E]⟩ [] [0] [0] 1)
    (idx : IVec ⟨2, ![E, 1]⟩ w) (e : Fin E) :
    (addEntriesDims N E wf).start (ix1 e) idx 0 = (idx (ix2 e 0)).toInt := by
  have hm : (0 : Fin 1) ∈ (addEntriesDims N E wf).scatterDimsToOperandDims := List.mem_singleton.mpr rfl
  unfold ScatterDims.start
  rw [dif_pos hm]
  have hsi : (addEntriesDims N E wf).siIdx (ix1 e) ⟨List.idxOf (0 : Fin 1) (addEntriesDims N E wf).scatterDimsToOperandDims,
      List.idxOf_lt_length_iff.2 hm⟩ = ix2 e 0 := by
    funext b; refine Fin.ext ?_
    match b with
    | ⟨0, _⟩ => rfl
    | ⟨1, _⟩ => rfl
  rw [hsi]

/-- Update `e` lands on entry `p` exactly when its index word, read signed, is `p`. -/
theorem addEntries_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (p : Fin N) :
    (addEntriesDims N E wf).resultIdx? (ix1 e) idx = some (ix1 p) ↔ (idx (ix2 e 0)).toInt = ((p.val : Nat) : Int) := by
  rw [resultIdx?_eq_some_iff]
  constructor
  · intro h
    have h0 : (addEntriesDims N E wf).start (ix1 e) idx 0 + (((addEntriesDims N E wf).window (ix1 e) 0 : Nat) : Int)
        = ((p.val : Nat) : Int) := h 0
    rw [addEntries_start, addEntries_window] at h0
    simpa using h0
  · intro h a
    obtain rfl : a = 0 := Subsingleton.elim _ _
    show (addEntriesDims N E wf).start (ix1 e) idx 0 + (((addEntriesDims N E wf).window (ix1 e) 0 : Nat) : Int)
      = ((p.val : Nat) : Int)
    rw [addEntries_start, addEntries_window, h]
    simp

/-- The vector scatter at `p`: the operand's entry plus the sum of the updates whose index word, read signed, is
    `p`. A word outside `[0, N)` is no `p`: its update is dropped. -/
theorem addEntries_scatterAdd_apply' {N E w : Nat}
    (wf : ScatterDims.WF ⟨1, ![N]⟩ ⟨2, ![E, 1]⟩ ⟨1, ![E]⟩ [] [0] [0] 1)
    (Z : (⟨1, ![N]⟩ : Shape).Idx → EReal) (idx : IVec ⟨2, ![E, 1]⟩ w) (U : (⟨1, ![E]⟩ : Shape).Idx → EReal)
    (p : Fin N) :
    Host.scatterAdd (F := Ideal) (φ := .f32) (addEntriesDims N E wf) Z idx U (ix1 p)
      = Z (ix1 p) + ∑ e ∈ Finset.univ.filter (fun e : Fin E => (idx (ix2 e 0)).toInt = ((p.val : Nat) : Int)),
          U (ix1 e) := by
  show Z (ix1 p) + ∑ j ∈ Finset.univ.filter (fun j => (addEntriesDims N E wf).resultIdx? j idx = some (ix1 p)), U j = _
  congr 1
  rw [Finset.sum_filter, sum_ix1, Finset.sum_filter]
  refine Finset.sum_congr rfl fun e _ => ?_
  simp only [addEntries_resultIdx_iff wf idx e p]

/-! ## The row scatter through one column of index words, with no assumption on the words -/

/-- Update `(e, c')` lands on `(p, c)` exactly when its index word, read signed, is `p` and `c' = c`. -/
theorem addRows_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (p : Fin N) (c : Fin C) :
    (addRowsDims N E C wf).resultIdx? (ix2 e c') idx = some (ix2 p c)
      ↔ (idx (ix2 e 0)).toInt = ((p.val : Nat) : Int) ∧ c' = c := by
  rw [resultIdx?_eq_some_iff]
  constructor
  · intro h
    have h0 : (addRowsDims N E C wf).start (ix2 e c') idx 0 + (((addRowsDims N E C wf).window (ix2 e c') 0 : Nat) : Int)
        = ((p.val : Nat) : Int) := h 0
    have h1 : (addRowsDims N E C wf).start (ix2 e c') idx 1 + (((addRowsDims N E C wf).window (ix2 e c') 1 : Nat) : Int)
        = ((c.val : Nat) : Int) := h 1
    rw [addRows_start0, addRows_window0] at h0
    rw [addRows_start1, addRows_window1] at h1
    refine ⟨by simpa using h0, Fin.ext ?_⟩
    have h1' : ((c'.val : Nat) : Int) = ((c.val : Nat) : Int) := by simpa using h1
    exact_mod_cast h1'
  · rintro ⟨h, rfl⟩ a
    match a with
    | ⟨0, _⟩ =>
      show (addRowsDims N E C wf).start (ix2 e c') idx 0 + (((addRowsDims N E C wf).window (ix2 e c') 0 : Nat) : Int)
        = ((p.val : Nat) : Int)
      rw [addRows_start0, addRows_window0, h]; simp
    | ⟨1, _⟩ =>
      show (addRowsDims N E C wf).start (ix2 e c') idx 1 + (((addRowsDims N E C wf).window (ix2 e c') 1 : Nat) : Int)
        = ((c'.val : Nat) : Int)
      rw [addRows_start1, addRows_window1]; simp

/-- The row scatter at `(p, c)`: the operand's entry plus the sum over the update rows whose index word, read
    signed, is `p` of their entry in column `c`. A word outside `[0, N)` is no `p`: its row is dropped. -/
theorem addRows_scatterAdd_apply' {N E C w : Nat}
    (wf : ScatterDims.WF ⟨2, ![N, C]⟩ ⟨2, ![E, 1]⟩ ⟨2, ![E, C]⟩ [1] [0] [0] 1)
    (Z : (⟨2, ![N, C]⟩ : Shape).Idx → EReal) (idx : IVec ⟨2, ![E, 1]⟩ w) (U : (⟨2, ![E, C]⟩ : Shape).Idx → EReal)
    (p : Fin N) (c : Fin C) :
    Host.scatterAdd (F := Ideal) (φ := .f32) (addRowsDims N E C wf) Z idx U (ix2 p c)
      = Z (ix2 p c) + ∑ e ∈ Finset.univ.filter (fun e : Fin E => (idx (ix2 e 0)).toInt = ((p.val : Nat) : Int)),
          U (ix2 e c) := by
  show Z (ix2 p c) + ∑ j ∈ Finset.univ.filter (fun j => (addRowsDims N E C wf).resultIdx? j idx = some (ix2 p c)), U j = _
  congr 1
  rw [Finset.sum_filter, sum_idx2, Finset.sum_filter]
  refine Finset.sum_congr rfl fun e _ => ?_
  simp only [addRows_resultIdx_iff wf idx e _ p c]
  by_cases hi : (idx (ix2 e 0)).toInt = ((p.val : Nat) : Int)
  · simp [hi]
  · simp [hi]

/-! ## The two agree -/

/-- Entry `p` of the vector scatter is entry `(p, 0)` of the one-column scatter through the same index words, when
    the operands agree and the updates agree entry by entry: both are the operand's entry plus the sum of the updates
    whose index word, read signed, is `p`. -/
theorem scatterAdd_entries_eq_column {N E w : Nat}
    (wfK : ScatterDims.WF ⟨1, ![N]⟩ ⟨2, ![E, 1]⟩ ⟨1, ![E]⟩ [] [0] [0] 1)
    (wfR : ScatterDims.WF ⟨2, ![N, 1]⟩ ⟨2, ![E, 1]⟩ ⟨2, ![E, 1]⟩ [1] [0] [0] 1)
    (ZK : (⟨1, ![N]⟩ : Shape).Idx → EReal) (ZR : (⟨2, ![N, 1]⟩ : Shape).Idx → EReal) (idx : IVec ⟨2, ![E, 1]⟩ w)
    (UK : (⟨1, ![E]⟩ : Shape).Idx → EReal) (UR : (⟨2, ![E, 1]⟩ : Shape).Idx → EReal)
    (hZ : ∀ p : Fin N, ZK (ix1 p) = ZR (ix2 p (0 : Fin 1))) (hU : ∀ e : Fin E, UK (ix1 e) = UR (ix2 e (0 : Fin 1)))
    (p : Fin N) :
    Host.scatterAdd (F := Ideal) (φ := .f32) (addEntriesDims N E wfK) ZK idx UK (ix1 p)
      = Host.scatterAdd (F := Ideal) (φ := .f32) (addRowsDims N E 1 wfR) ZR idx UR (ix2 p (0 : Fin 1)) := by
  rw [addEntries_scatterAdd_apply', addRows_scatterAdd_apply', hZ p]
  congr 1
  exact Finset.sum_congr rfl fun e _ => hU e

end Cert.Lib

end
-- ==== Proof.RefHist.lean ====
/-
  The reference's two histogram arrays.

  The reference flattens the [2048, 4096] entries, gives entry e (row e / 4096, column e % 4096) the flat index
  word 2000·row + bin word, and adds the entry's intensity into a zero vector of 2048·2000 slots at that index; the
  vector is then cut into 2048 rows of 2000 bins. A bin word is in 0 … 1999 and a row below 2048, so the flat word
  is below 2^31: it is never negative, the index adjustment for negative words leaves it alone, and it names slot
  2000·r + k exactly when the entry is in row r with bin word k. So slot (r, k) ends at the sum of row r's
  intensities over the entries with bin word k: row r's histogram at k. The sum over the 2048·4096 flat entries is
  read band by band, 2048 bands of 4096, and only band r contributes.
-/
import proofs.«120698_j83373905149952_2_alg».proof.Proof.Gen.ReferenceIdeal.Read
import proofs.«120698_j83373905149952_2_alg».proof.Proof.Spec
import proofs.«120698_j83373905149952_2_alg».proof.Proof.LibCountColumn
import proofs.«120698_j83373905149952_2_alg».proof.Proof.LibBandSum
import Idealize.ShloMosaic.Lib.ValueIdx
import Idealize.ShloMosaic.PureOps.Ideal.Laws
import Idealize.ShloMosaic.PureOps.IdealRules

set_option maxRecDepth 16384

noncomputable section

open Idealize.ShloMosaic Idealize.ShloMosaic.ValueIdx

namespace Cert.ReferenceIdeal.RefHist

open Cert.ReferenceIdeal Cert.ReferenceIdeal.Gen Cert.ReferenceIdeal.Read Cert.Hist

/-- Entry (r, c) of a [2048, 4096] array by natural numbers, 0 outside it. -/
def nat2 (A : Arr) (r c : ℕ) : EReal := if h : r < 2048 ∧ c < 4096 then A (ix2 ⟨r, h.1⟩ ⟨c, h.2⟩) else 0

theorem nat2_fin (A : Arr) (r : Fin 2048) (c : Fin 4096) : nat2 A r.val c.val = A (ix2 r c) := by
  unfold nat2; rw [dif_pos ⟨r.isLt, c.isLt⟩]

/-- The f32 word 0x3F800000 is 1, and dividing by it changes nothing, at the infinities too. -/
theorem div_one (y : EReal) : Ideal.div y (Ideal.ofBits .f32 0x3F800000#32) = y := by
  have h1 : Ideal.ofBits .f32 0x3F800000#32 = ((1 : ℝ) : EReal) :=
    (IdealRules.sign_bit.ideal_onePat .f32).trans EReal.coe_one.symm
  rw [h1, Ideal.div_coe one_ne_zero]
  simp

/-- The accumulating scatter of a flattened [2048, 4096] array of values into 2048·2000 slots, through flat index
    words 2000·row + bin word, read at slot 2000·r + k: row r's histogram at the bin word k. -/
theorem binned_apply (wf : ScatterDims.WF ⟨1, ![4096000]⟩ ⟨2, ![8388608, 1]⟩ ⟨1, ![8388608]⟩ [] [0] [0] 1)
    (Z : (⟨1, ![4096000]⟩ : Shape).Idx → EReal) (idxw : IVec ⟨2, ![8388608, 1]⟩ 32)
    (U : (⟨1, ![8388608]⟩ : Shape).Idx → EReal) (mz val : Arr)
    (hZ : ∀ j, Z j = 0)
    (hidx : ∀ e : Fin 8388608, (idxw (ix2 e (0 : Fin 1))).toInt
      = ((2000 * (e.val / 4096) + (binW (nat2 mz (e.val / 4096) (e.val % 4096))).toNat : ℕ) : ℤ))
    (hU : ∀ e : Fin 8388608, U (ix1 e) = nat2 val (e.val / 4096) (e.val % 4096))
    (r : Fin 2048) (k : Fin 2000) (hp : r.val * 2000 + k.val < 4096000) :
    Host.scatterAdd (F := Ideal) (φ := .f32) (Cert.Lib.addEntriesDims 4096000 8388608 wf) Z idxw U
        (ix1 ⟨r.val * 2000 + k.val, hp⟩)
      = hist (fun c : Fin 4096 => mz (ix2 r c)) (fun c => val (ix2 r c)) (BitVec.ofNat 32 k.val) := by
  rw [Cert.Lib.addEntries_scatterAdd_apply', hZ, zero_add, Finset.sum_filter]
  -- the flat entries as natural numbers
  let F : ℕ → EReal := fun q =>
    if q / 4096 = r.val ∧ binW (nat2 mz (q / 4096) (q % 4096)) = BitVec.ofNat 32 k.val
    then nat2 val (q / 4096) (q % 4096) else 0
  have hF : ∀ e : Fin 8388608,
      (if (idxw (ix2 e (0 : Fin 1))).toInt = (((⟨r.val * 2000 + k.val, hp⟩ : Fin 4096000).val : ℕ) : ℤ) then U (ix1 e) else 0)
        = F e.val := by
    intro e
    have hiff : (idxw (ix2 e (0 : Fin 1))).toInt = (((⟨r.val * 2000 + k.val, hp⟩ : Fin 4096000).val : ℕ) : ℤ)
        ↔ (e.val / 4096 = r.val ∧ binW (nat2 mz (e.val / 4096) (e.val % 4096)) = BitVec.ofNat 32 k.val) := by
      rw [hidx e, show ((⟨r.val * 2000 + k.val, hp⟩ : Fin 4096000).val) = 2000 * r.val + k.val from by
        show r.val * 2000 + k.val = _; omega]
      exact flat_eq_iff _ _ _ (binW_le _) _ k.isLt
    show _ = if _ then _ else _
    rw [hU e]
    exact if_congr hiff rfl rfl
  rw [Finset.sum_congr rfl fun e _ => hF e, Fin.sum_univ_eq_sum_range F 8388608,
    show (8388608 : ℕ) = 2048 * 4096 from rfl, ← Cert.Lib.sum_range_bands F 4096 2048,
    Finset.sum_eq_single_of_mem r.val (Finset.mem_range.mpr r.isLt)]
  · -- band r
    have hb : ∀ p ∈ Finset.range 4096, F (4096 * r.val + p)
        = colTerm (nat2 mz r.val) (nat2 val r.val) (BitVec.ofNat 32 k.val) p := by
      intro p hp'
      have hp4 : p < 4096 := Finset.mem_range.mp hp'
      have hd : (4096 * r.val + p) / 4096 = r.val := by omega
      have hm : (4096 * r.val + p) % 4096 = p := by omega
      show (if _ then _ else _) = _
      rw [hd, hm]
      unfold colTerm
      exact if_congr (and_iff_right rfl) rfl rfl
    rw [Finset.sum_congr rfl hb]
    exact histUpTo_all _ _ _ _ (fun c => nat2_fin mz r c) (fun c => nat2_fin val r c) _
  · -- the other bands
    intro j _ hj
    refine Finset.sum_eq_zero fun p hp' => ?_
    have hp4 : p < 4096 := Finset.mem_range.mp hp'
    have hd : (4096 * j + p) / 4096 = j := by omega
    show (if _ then _ else _) = _
    rw [hd]
    exact if_neg fun h => hj h.1

/-! ### The predicted spectrum -/

/-- The clipped bin word of an entry, as the reference computes it (times 2000, divided by 1, converted, clipped). -/
theorem pred_bin (x0 : Arr) (J : S2048x4096.Idx) : val_main_v5 (F := Ideal) x0 J = binW (x0 J) := by
  rw [val_main_v5_apply, val_main_call0_v4_apply, val_main_call0_v3_apply, val_main_c_1_apply,
    val_main_call0_v2_apply, val_main_call0_v1_apply, val_main_call0_v0_apply, val_main_c_apply,
    val_main_v4_apply, val_main_v3_apply, val_main_v1_apply, val_main_v0_apply, val_main_cst_apply,
    val_main_v2_apply, val_main_cst_0_apply]
  show clipW (Ideal.fptosi 32 (Ideal.div (x0 J * c2000) (Ideal.ofBits .f32 0x3F800000#32))) = _
  rw [div_one]
  rfl

/-- The flat index word of an entry: 2000 times its row plus its bin word. -/
theorem pred_flat (x0 : Arr) (e : Fin 8388608) :
    (val_main_v20 (F := Ideal) x0 (ix2 e (0 : Fin 1))).toInt
      = ((2000 * (e.val / 4096) + (binW (nat2 x0 (e.val / 4096) (e.val % 4096))).toNat : ℕ) : ℤ) := by
  have he := e.isLt
  have hr : e.val / 4096 < 2048 ∧ e.val % 4096 < 4096 := by omega
  have hJ : idx_main_v12 (idx_main_v20 (ix2 e (0 : Fin 1))) = ix2 ⟨e.val / 4096, hr.1⟩ ⟨e.val % 4096, hr.2⟩ :=
    funext fun a => Fin.ext (by match a with | ⟨0, _⟩ => rfl | ⟨1, _⟩ => rfl)
  rw [val_main_v20_apply, val_main_v19_apply, val_main_v16_apply, val_main_v18_apply, val_main_v12_apply,
    val_main_v15_apply, val_main_c_4_apply, val_main_v17_apply, val_main_c_5_apply,
    val_main_v11_apply, val_main_v10_apply, val_main_v9_apply, val_main_v7_apply, val_main_v6_apply,
    val_main_v8_apply, val_main_c_2_apply, pred_bin, hJ]
  have hn : nat2 x0 (e.val / 4096) (e.val % 4096) = x0 (ix2 ⟨e.val / 4096, hr.1⟩ ⟨e.val % 4096, hr.2⟩) := by
    unfold nat2; rw [dif_pos hr]
  rw [hn]
  exact flat_word (e.val / 4096) hr.1 _ (binW_le _)

/-- The histogram array, entry (r, k): row r's histogram at the bin word k. -/
theorem pred_hist (x0 x1 : Arr) (r : Fin 2048) (k : Fin 2000) :
    val_main_v22 (F := Ideal) x0 x1 (ix2 r k)
      = hist (fun c : Fin 4096 => x0 (ix2 r c)) (fun c => x1 (ix2 r c)) (BitVec.ofNat 32 k.val) := by
  have hp : r.val * 2000 + k.val < 4096000 := by have := r.isLt; have := k.isLt; omega
  have hi : idx_main_v22 (ix2 r k) = ix1 ⟨r.val * 2000 + k.val, hp⟩ :=
    funext fun a => Fin.ext (by match a with | ⟨0, _⟩ => rfl)
  rw [val_main_v22_apply, hi]
  unfold val_main_v21
  refine binned_apply scatter_S4096000_S8388608x1_S8388608_n_0_0_1_wf _ _ _ x0 (fun j => x1 j) ?_ (pred_flat x0) ?_ r k hp
  · intro j
    rw [val_main_v13_apply, val_main_cst_3_apply]
    exact Ideal.ofBits_zero_f32
  · intro e
    have he := e.isLt
    have hr : e.val / 4096 < 2048 ∧ e.val % 4096 < 4096 := by omega
    have hJ : idx_main_v14 (ix1 e) = ix2 ⟨e.val / 4096, hr.1⟩ ⟨e.val % 4096, hr.2⟩ :=
      funext fun a => Fin.ext (by match a with | ⟨0, _⟩ => rfl | ⟨1, _⟩ => rfl)
    unfold nat2
    rw [dif_pos hr, val_main_v14_apply, hJ]

/-! ### The target spectrum -/

/-- The clipped bin word of an entry, as the reference computes it (times 2000, divided by 1, converted, clipped). -/
theorem targ_bin (x2 : Arr) (J : S2048x4096.Idx) : val_main_v34 (F := Ideal) x2 J = binW (x2 J) := by
  rw [val_main_v34_apply, val_main_call2_v4_apply, val_main_call2_v3_apply, val_main_c_10_apply,
    val_main_call2_v2_apply, val_main_call2_v1_apply, val_main_call2_v0_apply, val_main_c_9_apply,
    val_main_v33_apply, val_main_v32_apply, val_main_v30_apply, val_main_v29_apply, val_main_cst_7_apply,
    val_main_v31_apply, val_main_cst_8_apply]
  show clipW (Ideal.fptosi 32 (Ideal.div (x2 J * c2000) (Ideal.ofBits .f32 0x3F800000#32))) = _
  rw [div_one]
  rfl

/-- The flat index word of an entry: 2000 times its row plus its bin word. -/
theorem targ_flat (x2 : Arr) (e : Fin 8388608) :
    (val_main_v49 (F := Ideal) x2 (ix2 e (0 : Fin 1))).toInt
      = ((2000 * (e.val / 4096) + (binW (nat2 x2 (e.val / 4096) (e.val % 4096))).toNat : ℕ) : ℤ) := by
  have he := e.isLt
  have hr : e.val / 4096 < 2048 ∧ e.val % 4096 < 4096 := by omega
  have hJ : idx_main_v41 (idx_main_v49 (ix2 e (0 : Fin 1))) = ix2 ⟨e.val / 4096, hr.1⟩ ⟨e.val % 4096, hr.2⟩ :=
    funext fun a => Fin.ext (by match a with | ⟨0, _⟩ => rfl | ⟨1, _⟩ => rfl)
  rw [val_main_v49_apply, val_main_v48_apply, val_main_v45_apply, val_main_v47_apply, val_main_v41_apply,
    val_main_v44_apply, val_main_c_13_apply, val_main_v46_apply, val_main_c_14_apply,
    val_main_v40_apply, val_main_v39_apply, val_main_v38_apply, val_main_v36_apply, val_main_v35_apply,
    val_main_v37_apply, val_main_c_11_apply, targ_bin, hJ]
  have hn : nat2 x2 (e.val / 4096) (e.val % 4096) = x2 (ix2 ⟨e.val / 4096, hr.1⟩ ⟨e.val % 4096, hr.2⟩) := by
    unfold nat2; rw [dif_pos hr]
  rw [hn]
  exact flat_word (e.val / 4096) hr.1 _ (binW_le _)

/-- The histogram array, entry (r, k): row r's histogram at the bin word k. -/
theorem targ_hist (x2 x3 x4 : Arr) (r : Fin 2048) (k : Fin 2000) :
    val_main_v51 (F := Ideal) x2 x3 x4 (ix2 r k)
      = hist (fun c : Fin 4096 => x2 (ix2 r c)) (fun c => x3 (ix2 r c) * x4 (ix2 r c)) (BitVec.ofNat 32 k.val) := by
  have hp : r.val * 2000 + k.val < 4096000 := by have := r.isLt; have := k.isLt; omega
  have hi : idx_main_v51 (ix2 r k) = ix1 ⟨r.val * 2000 + k.val, hp⟩ :=
    funext fun a => Fin.ext (by match a with | ⟨0, _⟩ => rfl)
  rw [val_main_v51_apply, hi]
  unfold val_main_v50
  refine binned_apply scatter_S4096000_S8388608x1_S8388608_n_0_0_1_wf _ _ _ x2 (fun j => x3 j * x4 j) ?_ (targ_flat x2) ?_ r k hp
  · intro j
    rw [val_main_v42_apply, val_main_cst_12_apply]
    exact Ideal.ofBits_zero_f32
  · intro e
    have he := e.isLt
    have hr : e.val / 4096 < 2048 ∧ e.val % 4096 < 4096 := by omega
    have hJ : idx_main_v43 (ix1 e) = ix2 ⟨e.val / 4096, hr.1⟩ ⟨e.val % 4096, hr.2⟩ :=
      funext fun a => Fin.ext (by match a with | ⟨0, _⟩ => rfl | ⟨1, _⟩ => rfl)
    unfold nat2
    rw [dif_pos hr, val_main_v43_apply, hJ]
    rfl

end Cert.ReferenceIdeal.RefHist

end
-- ==== Proof.RefValue.lean ====
/-
  The reference's result is the specification's loss.

  From the two histogram arrays the reference forms, row by row, the norms, the histograms divided by their norms
  plus ε, the sum of the products, the norms of the divided histograms clamped below by ε, and the quotient; then
  one minus the sum of the rows' quotients over 2048. Each of its sums over the 2000 bins starts from the zero
  word, which is 0. Read at an index these are the specification's terms with the sums running over the 2000 bins.
-/
import proofs.«120698_j83373905149952_2_alg».proof.Proof.RefHist
import proofs.«120698_j83373905149952_2_alg».proof.Proof.LibUnitAxes

set_option maxRecDepth 16384

noncomputable section

open Idealize.ShloMosaic Idealize.ShloMosaic.ValueIdx

namespace Cert.ReferenceIdeal.RefValue

open Cert.ReferenceIdeal Cert.ReferenceIdeal.Gen Cert.ReferenceIdeal.Read Cert.ReferenceIdeal.RefHist Cert.Hist

variable (x0 x1 x2 x3 x4 : Arr)

theorem pred_hist (r : Fin 2048) (k : Fin 2000) :
    val_main_v22 (F := Ideal) x0 x1 (ix2 r k) = predH x0 x1 r k.val := RefHist.pred_hist x0 x1 r k
theorem targ_hist (r : Fin 2048) (k : Fin 2000) :
    val_main_v51 (F := Ideal) x2 x3 x4 (ix2 r k) = targH x2 x3 x4 r k.val := RefHist.targ_hist x2 x3 x4 r k

/-! ### The predicted spectrum -/

/-- Row r's norm, kept as a column entry. -/
theorem pred_norm (r : Fin 2048) (u : Fin 1) :
    val_main_v23 (F := Ideal) x0 x1 (ix2 r u) = normOf sumR (predH x0 x1 r) := by
  have hi : ∀ k : Fin 2000, idx_main_call1_v1 (idx_main_call1_v2 (ix2 r u)) k = ix2 r k := fun k =>
    funext fun a => Fin.ext (by match a with | ⟨0, _⟩ => rfl | ⟨1, _⟩ => rfl)
  rw [val_main_v23_apply, val_main_call1_v2_apply, val_main_call1_v1_apply, val_main_call1_cst_apply]
  simp only [Ideal.hostUnary_sqrt_def, Ideal.ofBits_def, Ideal.ofBits_zero_f32, zero_add]
  unfold normOf sumR
  refine congrArg Ideal.sqrt (Finset.sum_congr rfl fun k _ => ?_)
  rw [hi k, val_main_call1_v0_apply, pred_hist]
  rfl

/-- Row r's histogram divided by its norm plus ε, bin by bin. -/
theorem pred_unit (r : Fin 2048) (k : Fin 2000) :
    val_main_v27 (F := Ideal) x0 x1 (ix2 r k) = unitOf sumR (predH x0 x1 r) k.val := by
  have hi : idx_main_v26 (ix2 r k) = ix2 r (0 : Fin 1) :=
    funext fun a => Fin.ext (by match a with | ⟨0, _⟩ => rfl | ⟨1, _⟩ => rfl)
  rw [val_main_v27_apply, val_main_v26_apply, val_main_v25_apply, val_main_v24_apply, val_main_cst_6_apply,
    hi, pred_norm, pred_hist]
  rfl

/-- The larger of that vector's norm and ε. -/
theorem pred_umax (r : Fin 2048) :
    val_main_v61 (F := Ideal) x0 x1 (ix1 r) = max (normOf sumR (unitOf sumR (predH x0 x1 r))) eps := by
  have hi : ∀ k : Fin 2000, idx_main_call4_v1 (ix1 r) k = ix2 r k := fun k =>
    funext fun a => Fin.ext (by match a with | ⟨0, _⟩ => rfl | ⟨1, _⟩ => rfl)
  rw [val_main_v61_apply, val_main_v59_apply, val_main_call4_v1_apply, val_main_call4_cst_apply,
    val_main_v60_apply, val_main_cst_17_apply]
  simp only [Ideal.maximumf_def, Ideal.hostUnary_sqrt_def, Ideal.ofBits_def, Ideal.ofBits_zero_f32, zero_add]
  unfold normOf sumR
  refine congrArg (fun z => max (Ideal.sqrt z) eps) (Finset.sum_congr rfl fun k _ => ?_)
  rw [hi k, val_main_call4_v0_apply, pred_unit]
  rfl

/-! ### The target spectrum -/

/-- Row r's norm, kept as a column entry. -/
theorem targ_norm (r : Fin 2048) (u : Fin 1) :
    val_main_v52 (F := Ideal) x2 x3 x4 (ix2 r u) = normOf sumR (targH x2 x3 x4 r) := by
  have hi : ∀ k : Fin 2000, idx_main_call3_v1 (idx_main_call3_v2 (ix2 r u)) k = ix2 r k := fun k =>
    funext fun a => Fin.ext (by match a with | ⟨0, _⟩ => rfl | ⟨1, _⟩ => rfl)
  rw [val_main_v52_apply, val_main_call3_v2_apply, val_main_call3_v1_apply, val_main_call3_cst_apply]
  simp only [Ideal.hostUnary_sqrt_def, Ideal.ofBits_def, Ideal.ofBits_zero_f32, zero_add]
  unfold normOf sumR
  refine congrArg Ideal.sqrt (Finset.sum_congr rfl fun k _ => ?_)
  rw [hi k, val_main_call3_v0_apply, targ_hist]
  rfl

/-- Row r's histogram divided by its norm plus ε, bin by bin. -/
theorem targ_unit (r : Fin 2048) (k : Fin 2000) :
    val_main_v56 (F := Ideal) x2 x3 x4 (ix2 r k) = unitOf sumR (targH x2 x3 x4 r) k.val := by
  have hi : idx_main_v55 (ix2 r k) = ix2 r (0 : Fin 1) :=
    funext fun a => Fin.ext (by match a with | ⟨0, _⟩ => rfl | ⟨1, _⟩ => rfl)
  rw [val_main_v56_apply, val_main_v55_apply, val_main_v54_apply, val_main_v53_apply, val_main_cst_15_apply,
    hi, targ_norm, targ_hist]
  rfl

/-- The larger of that vector's norm and ε. -/
theorem targ_umax (r : Fin 2048) :
    val_main_v64 (F := Ideal) x2 x3 x4 (ix1 r) = max (normOf sumR (unitOf sumR (targH x2 x3 x4 r))) eps := by
  have hi : ∀ k : Fin 2000, idx_main_call5_v1 (ix1 r) k = ix2 r k := fun k =>
    funext fun a => Fin.ext (by match a with | ⟨0, _⟩ => rfl | ⟨1, _⟩ => rfl)
  rw [val_main_v64_apply, val_main_v62_apply, val_main_call5_v1_apply, val_main_call5_cst_apply,
    val_main_v63_apply, val_main_cst_18_apply]
  simp only [Ideal.maximumf_def, Ideal.hostUnary_sqrt_def, Ideal.ofBits_def, Ideal.ofBits_zero_f32, zero_add]
  unfold normOf sumR
  refine congrArg (fun z => max (Ideal.sqrt z) eps) (Finset.sum_congr rfl fun k _ => ?_)
  rw [hi k, val_main_call5_v0_apply, targ_unit]
  rfl

/-! ### The rows' cosines and the loss -/

/-- The sum over the bins of the products of the two divided histograms. -/
theorem dot_row (r : Fin 2048) :
    val_main_v58 (F := Ideal) x0 x1 x2 x3 x4 (ix1 r)
      = sumR fun k => unitOf sumR (predH x0 x1 r) k * unitOf sumR (targH x2 x3 x4 r) k := by
  have hi : ∀ k : Fin 2000, idx_main_v58 (ix1 r) k = ix2 r k := fun k =>
    funext fun a => Fin.ext (by match a with | ⟨0, _⟩ => rfl | ⟨1, _⟩ => rfl)
  rw [val_main_v58_apply, val_main_cst_16_apply]
  simp only [Ideal.ofBits_def, Ideal.ofBits_zero_f32, zero_add]
  unfold sumR
  refine Finset.sum_congr rfl fun k _ => ?_
  rw [hi k, val_main_v57_apply, pred_unit, targ_unit]
  rfl

/-- Row r's quotient is the specification's cosine of row r. -/
theorem cos_row (r : Fin 2048) :
    val_main_v66 (F := Ideal) x0 x1 x2 x3 x4 (ix1 r) = cosRow sumR x0 x1 x2 x3 x4 r := by
  rw [val_main_v66_apply, val_main_v65_apply, dot_row, pred_umax, targ_umax]
  rfl

/-- The reference's result, at its one index, is the loss. -/
theorem result_apply (i : S_.Idx) : val_main_v69 (F := Ideal) x0 x1 x2 x3 x4 i = loss x0 x1 x2 x3 x4 := by
  rw [val_main_v69_apply, val_main_cst_21_apply, val_main_v68_apply, val_main_cst_20_apply, val_main_v67_apply,
    val_main_cst_19_apply, Cert.Lib.sum_idx1, Finset.sum_congr rfl fun r _ => cos_row x0 x1 x2 x3 x4 r]
  rfl

theorem result_eq : val_main_v69 (F := Ideal) x0 x1 x2 x3 x4 = fun _ => loss x0 x1 x2 x3 x4 :=
  funext fun i => result_apply x0 x1 x2 x3 x4 i

end Cert.ReferenceIdeal.RefValue

end
-- ==== Proof.lean ====
/-
  A binned cosine loss: a kernel that builds the two histograms of every row with factored one-hot matrix products,
  against a reference that builds them with one flat scatter-add.

  For each of 2048 rows and each of two spectra (predicted; target with intensity times mask) every one of the 4096
  entries gets a bin word in 0 … 1999 (m/z times 2000, converted to an integer, clipped), and the row's histogram
  at a bin is the sum of the intensities of the entries with that bin word. From the two histograms a row's cosine
  is formed (norms, division by norm plus ε, inner product, norms clamped below by ε, quotient), and the result is
  one minus the mean of the 2048 cosines.

  The kernel walks a row block's 32 column tiles, keeping per spectrum an accumulator of 16 × 128 cells. A tile adds
  to cell (k1, k0) the sum over its 128 columns of (indicator that the bin word's high part is k1) · intensity ·
  (indicator that its low part is k0), which is the tile's intensity at the bin word 128·k1 + k0; so after the last
  tile the cells are the row's histogram, the 48 cells past bin 1999 being 0. The reference adds every entry's
  intensity into slot 2000·row + bin word of one long vector. Both then form the same cosine, the kernel summing
  over 2048 cells and the reference over 2000 bins: the extra cells contribute 0 to every sum (0 divided by a
  nonzero norm is 0, and 0 times anything is 0 on the extended reals; a norm plus ε is positive because a sum of
  squares is nonnegative and ε is a positive real). The reference also divides m/z · 2000 by the f32 word for 1,
  which changes nothing. Nothing here needs an input to be finite.

  The three frames: the kernel's two are the generated frame certificates; the reference's is its generated run with
  the result dropped. The idealization rewrote nothing, so there is nothing to preserve.
-/
import proofs.«120698_j83373905149952_2_alg».proof.Defs
import proofs.«120698_j83373905149952_2_alg».proof.Proof.Gen.Kernel
import proofs.«120698_j83373905149952_2_alg».proof.Proof.Gen.Kernel.Skeleton
import proofs.«120698_j83373905149952_2_alg».proof.Proof.Gen.Kernel.Launch
import proofs.«120698_j83373905149952_2_alg».proof.Proof.Gen.Kernel.Points
import proofs.«120698_j83373905149952_2_alg».proof.Proof.Gen.Kernel.Frame
import proofs.«120698_j83373905149952_2_alg».proof.Proof.Gen.KernelIdeal
import proofs.«120698_j83373905149952_2_alg».proof.Proof.Gen.KernelIdeal.Skeleton
import proofs.«120698_j83373905149952_2_alg».proof.Proof.Gen.KernelIdeal.Launch
import proofs.«120698_j83373905149952_2_alg».proof.Proof.Gen.KernelIdeal.Points
import proofs.«120698_j83373905149952_2_alg».proof.Proof.Gen.KernelIdeal.Frame
import proofs.«120698_j83373905149952_2_alg».proof.Proof.Gen.ReferenceIdeal
import proofs.«120698_j83373905149952_2_alg».proof.Proof.Gen.ReferenceIdeal.Run
import proofs.«120698_j83373905149952_2_alg».proof.Proof.Gen.ReferenceIdeal.Read
import proofs.«120698_j83373905149952_2_alg».proof.Proof.Gen.Pre_finite_inputs
import proofs.«120698_j83373905149952_2_alg».proof.Proof.KernelValue
import proofs.«120698_j83373905149952_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the loss of the argument arrays in their result buffer. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v69_eq, Cert.ReferenceIdeal.RefValue.result_eq, (hagree c).1, (hagree c).2.1,
    (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
